-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x3200000 : Shape := ⟨2, ![2, 3200000]⟩
abbrev S3200000x1 : Shape := ⟨2, ![3200000, 1]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x2 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x2 .f32 := Host.absf main_arg8
  let main_cst_10 : FVec F S_ .f32 := constant S_ .f32 0x7F800000#32
  let main_v30 : FVec F S64x2 .f32 := broadcastInDim S64x2 ![] bcast_S_S64x2 main_cst_10
  let main_v31 : IVec S64x2 1 := cmpf .olt main_v29 main_v30
  let main_c_11 : IVec S_ 1 := constantI S_ 1 1#1
  let main_v32 : IVec S_ 1 := (fun x v => Host.reduce IntOp.andi x v reducesTo_S64x2_S_d0_1 h_S_) main_v31 main_c_11
  let main_v33 : IVec S_ 1 := andi main_v28 main_v32
  fn_part2 (F := F) main_arg9 main_v33

def fn {F : FTy → Type} [FloatOps F] (main_arg0 : FVec F S50000x5 .f32) (main_arg1 : IVec S2x3200000 32) (main_arg2 : FVec F S3200000x1 .f32) (main_arg3 : IVec S50000 32) (main_arg4 : FVec F S5x64 .f32) (main_arg5 : FVec F S64 .f32) (main_arg6 : FVec F S64x64 .f32) (main_arg7 : FVec F S64 .f32) (main_arg8 : FVec F S64x2 .f32) (main_arg9 : FVec F S2 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S5x64 .f32 := Host.absf main_arg4
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S50000x5 : Shape := ⟨2, ![50000, 5]⟩
abbrev S2x3200000 : Shape := ⟨2, ![2, 3200000]⟩
abbrev S3200000x1 : Shape := ⟨2, ![3200000, 1]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S3200000 : Shape := ⟨1, ![3200000]⟩
abbrev S1x3200000 : Shape := ⟨2, ![1, 3200000]⟩
abbrev S3250000 : Shape := ⟨1, ![3250000]⟩
abbrev S_ : Shape := ⟨0, ![]⟩
abbrev S3250000x1 : Shape := ⟨2, ![3250000, 1]⟩
abbrev S50000x1 : Shape := ⟨2, ![50000, 1]⟩
abbrev S50000x64 : Shape := ⟨2, ![50000, 64]⟩
abbrev S5000x5 : Shape := ⟨2, ![5000, 5]⟩
abbrev S5000x1 : Shape := ⟨2, ![5000, 1]⟩
abbrev S5000x64 : Shape := ⟨2, ![5000, 64]⟩
abbrev S3250000x64 : Shape := ⟨2, ![3250000, 64]⟩
abbrev S1x64 : Shape := ⟨2, ![1, 64]⟩
abbrev S50x64 : Shape := ⟨2, ![50, 64]⟩
abbrev S50 : Shape := ⟨1, ![50]⟩
abbrev S50x1 : Shape := ⟨2, ![50, 1]⟩
abbrev S1x2 : Shape := ⟨2, ![1, 2]⟩
abbrev S50x2 : Shape := ⟨2, ![50, 2]⟩

abbrev nBuf : Space → Nat
  | .hbm => 97
  | .vmem => 32
  | .smem => 0
  | _ => 0

abbrev bufTy : (tb : Table) → Fin (tcTables nBuf tb) → BufTy
  | .hbm, ⟨0, _⟩ => ⟨S50000x5, .f32⟩
  | .hbm, ⟨1, _⟩ => ⟨S2x3200000, .i32⟩
  | .hbm, ⟨2, _⟩ => ⟨S3200000x1, .f32⟩
  | .hbm, ⟨3, _⟩ => ⟨S50000, .i32⟩
  | .hbm, ⟨4, _⟩ => ⟨S5x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S3200000, .f32⟩
  | .hbm, ⟨11, _⟩ => ⟨S50000, .i32⟩
  | .hbm, ⟨12, _⟩ => ⟨S1x3200000, .i32⟩
  | .hbm, ⟨13, _⟩ => ⟨S3200000, .i32⟩
  | .hbm, ⟨14, _⟩ => ⟨S3250000, .i32⟩
  | .hbm, ⟨15, _⟩ => ⟨S1x3200000, .i32⟩
  | .hbm, ⟨16, _⟩ => ⟨S3200000, .i32⟩
  | .hbm, ⟨17, _⟩ => ⟨S3250000, .i32⟩
  | .hbm, ⟨18, _⟩ => ⟨S_, .f32⟩
  | .hbm, ⟨19, _⟩ => ⟨S50000, .f32⟩
  | .hbm, ⟨20, _⟩ => ⟨S3250000, .f32⟩
  | .hbm, ⟨21, _⟩ => ⟨S_, .f32⟩
  | .hbm, ⟨22, _⟩ => ⟨S50000, .f32⟩
  | .hbm, ⟨23, _⟩ => ⟨S3250000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x64, .f32⟩
  | .hbm, ⟨42, _⟩ => ⟨S_, .i32⟩
  | .hbm, ⟨43, _⟩ => ⟨S3250000, .i32⟩
  | .hbm, ⟨44, _⟩ => ⟨S3250000, .i1⟩
  | .hbm, ⟨45, _⟩ => ⟨S_, .i32⟩
  | .hbm, ⟨46, _⟩ => ⟨S3250000, .i32⟩
  | .hbm, ⟨47, _⟩ => ⟨S3250000, .i32⟩
  | .hbm, ⟨48, _⟩ => ⟨S3250000, .i32⟩
  | .hbm, ⟨49, _⟩ => ⟨S3250000x1, .i32⟩
  | .hbm, ⟨50, _⟩ => ⟨S3250000x64, .f32⟩
  | .hbm, ⟨51, _⟩ => ⟨S3250000x1, .f32⟩
  | .hbm, ⟨52, _⟩ => ⟨S3250000x64, .f32⟩
  | .hbm, ⟨53, _⟩ => ⟨S3250000x64, .f32⟩
  | .hbm, ⟨54, _⟩ => ⟨S_, .f32⟩
  | .hbm, ⟨55, _⟩ => ⟨S50000x64, .f32⟩
  | .hbm, ⟨56, _⟩ => ⟨S3250000x1, .i32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S_, .i32⟩
  | .hbm, ⟨62, _⟩ => ⟨S3250000, .i32⟩
  | .hbm, ⟨63, _⟩ => ⟨S3250000, .i1⟩
  | .hbm, ⟨64, _⟩ => ⟨S_, .i32⟩
  | .hbm, ⟨65, _⟩ => ⟨S3250000, .i32⟩
  | .hbm, ⟨66, _⟩ => ⟨S3250000, .i32⟩
  | .hbm, ⟨67, _⟩ => ⟨S3250000, .i32⟩
  | .hbm, ⟨68, _⟩ => ⟨S3250000x1, .i32⟩
  | .hbm, ⟨69, _⟩ => ⟨S3250000x64, .f32⟩
  | .hbm, ⟨70, _⟩ => ⟨S3250000x1, .f32⟩
  | .hbm, ⟨71, _⟩ => ⟨S3250000x64, .f32⟩
  | .hbm, ⟨72, _⟩ => ⟨S3250000x64, .f32⟩
  | .hbm, ⟨73, _⟩ => ⟨S_, .f32⟩
  | .hbm, ⟨74, _⟩ => ⟨S50000x64, .f32⟩
  | .hbm, ⟨75, _⟩ => ⟨S3250000x1, .i32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S_, .f32⟩
  | .hbm, ⟨80, _⟩ => ⟨S50x64, .f32⟩
  | .hbm, ⟨81, _⟩ => ⟨S50000x1, .i32⟩
  | .hbm, ⟨82, _⟩ => ⟨S50x64, .f32⟩
  | .hbm, ⟨83, _⟩ => ⟨S_, .f32⟩
  | .hbm, ⟨84, _⟩ => ⟨S50000, .f32⟩
  | .hbm, ⟨85, _⟩ => ⟨S_, .f32⟩
  | .hbm, ⟨86, _⟩ => ⟨S50, .f32⟩
  | .hbm, ⟨87, _⟩ => ⟨S50000x1, .i32⟩
  | .hbm, ⟨88, _⟩ => ⟨S50, .f32⟩
  | .hbm, ⟨89, _⟩ => ⟨S_, .f32⟩
  | .hbm, ⟨90, _⟩ => ⟨S50, .f32⟩
  | .hbm, ⟨91, _⟩ => ⟨S50, .f32⟩
  | .hbm, ⟨92, _⟩ => ⟨S50x1, .f32⟩
  | .hbm, ⟨93, _⟩ => ⟨S50x64, .f32⟩
  | .hbm, ⟨94, _⟩ => ⟨S50x64, .f32⟩
  | .hbm, ⟨95, _⟩ => ⟨S1x2, .f32⟩
  | .hbm, ⟨96, _⟩ => ⟨S50x2, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S50x64, .f32⟩
  | .local _ .vmem, ⟨29, _⟩ => ⟨S64x2, .f32⟩
  | .local _ .vmem, ⟨30, _⟩ => ⟨S1x2, .f32⟩
  | .local _ .vmem, ⟨31, _⟩ => ⟨S50x2, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S50x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S50x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  shapeCasts_S3200000x1_S3200000 : S3200000x1.ShapeCasts S3200000
  slices_S2x3200000_S1x3200000_0_0 : S2x3200000.Slices ![0, 0] S1x3200000
  shapeCasts_S1x3200000_S3200000 : S1x3200000.ShapeCasts S3200000
  concatenates_S3200000_S50000_S3250000_d0 : Shape.Concatenates [S3200000, S50000] S3250000 0
  slices_S2x3200000_S1x3200000_1_0 : S2x3200000.Slices ![1, 0] S1x3200000
  bcast_S_S50000 : S_.BroadcastsInDim S50000 (![] : Fin 0 → Fin S50000.rank)
  bcast_S3250000_S3250000x1_0 : S3250000.BroadcastsInDim S3250000x1 (![0] : Fin 1 → Fin S3250000x1.rank)
  bcast_S50000_S50000x1_0 : S50000.BroadcastsInDim S50000x1 (![0] : Fin 1 → Fin S50000x1.rank)
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S3250000 : S_.BroadcastsInDim S3250000 (![] : Fin 0 → Fin S3250000.rank)
  bcast_S3250000x1_S3250000x64_0_1 : S3250000x1.BroadcastsInDim S3250000x64 (![0, 1] : Fin 2 → Fin S3250000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S50x64 : S_.BroadcastsInDim S50x64 (![] : Fin 0 → Fin S50x64.rank)
  bcast_S_S50 : S_.BroadcastsInDim S50 (![] : Fin 0 → Fin S50.rank)
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  shapeCasts_S2_S1x2 : S2.ShapeCasts S1x2
  inb_S50x64_S50x64_0_0 : ∀ a, (![0, 0] : Fin 2 → Nat) a + S50x64.size a ≤ S50x64.size a
  h_S50x64 : 0 < S50x64.numel
  shapeCasts_S50x64_S50x64 : S50x64.ShapeCasts S50x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S50x2 : S1x2.Broadcasts S50x2
  inb_S50x2_S50x2_0_0 : ∀ a, (![0, 0] : Fin 2 → Nat) a + S50x2.size a ≤ S50x2.size a
  h_S50x2 : 0 < S50x2.numel
  scatter_S50000_S3250000x1_S3250000_n_0_0_1_wf : ScatterDims.WF S50000 S3250000x1 S3250000 [] [0] [0] 1
  dot_S5000x5_S5x64_S5000x64_1_0_0_1_n_n_wf : DotDims.WF S5000x5 S5x64 S5000x64 [1] [0] [0] [1] [] []
  gather_S50000x64_S3250000x1_S3250000x64_1_0_n_n_0_1_164_wf : GatherDims.WF S50000x64 S3250000x1 S3250000x64 [1] [0] [] [0] [] 1 ![1, 64]
  scatter_S50000x64_S3250000x1_S3250000x64_1_0_0_1_wf : ScatterDims.WF S50000x64 S3250000x1 S3250000x64 [1] [0] [0] 1
  dot_S5000x64_S64x64_S5000x64_1_0_0_1_n_n_wf : DotDims.WF S5000x64 S64x64 S5000x64 [1] [0] [0] [1] [] []
  scatter_S50x64_S50000x1_S50000x64_1_0_0_1_wf : ScatterDims.WF S50x64 S50000x1 S50000x64 [1] [0] [0] 1
  scatter_S50_S50000x1_S50000_n_0_0_1_wf : ScatterDims.WF S50 S50000x1 S50000 [] [0] [0] 1
  dot_S50x64_S64x2_S50x2_1_0_0_1_n_n_wf : DotDims.WF S50x64 S64x2 S50x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S50x64.size a ≤ S50x64.size a
  hwx4_0 : ∀ i : grid4.Coords, EltTy.bits .f32 = 32 ∨ (Rect.block (s := S50x64) S50x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S50x2.size a ≤ S50x2.size a
  hwx4_3 : ∀ i : grid4.Coords, EltTy.bits .f32 = 32 ∨ (Rect.block (s := S50x2) S50x2.size (cc4_transform_3 i) (hinb4_3 i)).WholeWords (EltTy.packing .f32)

variable [Facts₀]

def scatter_S50000_S3250000x1_S3250000_n_0_0_1 : ScatterDims S50000 S3250000x1 S3250000 where
  updateWindowDims := []
  insertedWindowDims := [0]
  scatterDimsToOperandDims := [0]
  indexVectorDim := 1
  wf := scatter_S50000_S3250000x1_S3250000_n_0_0_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S50000x64_S3250000x1_S3250000x64_1_0_n_n_0_1_164 : GatherDims S50000x64 S3250000x1 S3250000x64 where
  offsetDims := [1]
  collapsedSliceDims := [0]
  operandBatchingDims := []
  startIndicesBatchingDims := []
  startIndexMap := [0]
  indexVectorDim := 1
  sliceSizes := ![1, 64]
  wf := gather_S50000x64_S3250000x1_S3250000x64_1_0_n_n_0_1_164_wf
def scatter_S50000x64_S3250000x1_S3250000x64_1_0_0_1 : ScatterDims S50000x64 S3250000x1 S3250000x64 where
  updateWindowDims := [1]
  insertedWindowDims := [0]
  scatterDimsToOperandDims := [0]
  indexVectorDim := 1
  wf := scatter_S50000x64_S3250000x1_S3250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50x64_S50000x1_S50000x64_1_0_0_1 : ScatterDims S50x64 S50000x1 S50000x64 where
  updateWindowDims := [1]
  insertedWindowDims := [0]
  scatterDimsToOperandDims := [0]
  indexVectorDim := 1
  wf := scatter_S50x64_S50000x1_S50000x64_1_0_0_1_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def dot_S50x64_S64x2_S50x2_1_0_0_1_n_n : DotDims S50x64 S64x2 S50x2 where
  lhsContracting := [1]
  rhsContracting := [0]
  lhsNonContracting := [0]
  rhsNonContracting := [1]
  lhsBatch := []
  rhsBatch := []
  wf := dot_S50x64_S64x2_S50x2_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S50x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S50x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x5 : Shape := ⟨2, ![50000, 5]⟩
abbrev S2x3200000 : Shape := ⟨2, ![2, 3200000]⟩
abbrev S3200000x1 : Shape := ⟨2, ![3200000, 1]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S3200000 : Shape := ⟨1, ![3200000]⟩
abbrev S1x3200000 : Shape := ⟨2, ![1, 3200000]⟩
abbrev S3250000 : Shape := ⟨1, ![3250000]⟩
abbrev S_ : Shape := ⟨0, ![]⟩
abbrev S3250000x1 : Shape := ⟨2, ![3250000, 1]⟩
abbrev S50000x64 : Shape := ⟨2, ![50000, 64]⟩
abbrev S3250000x64 : Shape := ⟨2, ![3250000, 64]⟩
abbrev S1x64 : Shape := ⟨2, ![1, 64]⟩
abbrev S50x64 : Shape := ⟨2, ![50, 64]⟩
abbrev S50000x1 : Shape := ⟨2, ![50000, 1]⟩
abbrev S50 : Shape := ⟨1, ![50]⟩
abbrev S50x1 : Shape := ⟨2, ![50, 1]⟩
abbrev S50x2 : Shape := ⟨2, ![50, 2]⟩
abbrev S1x2 : Shape := ⟨2, ![1, 2]⟩

abbrev nBuf : Space → Nat
  | .hbm => 165
  | .vmem => 0
  | .smem => 0
  | _ => 0

abbrev hbmTy0_0 (i : Nat) : BufTy := match i % 128 with
  | 0 => ⟨S50000x5, .f32⟩
  | 1 => ⟨S2x3200000, .i32⟩
  | 2 => ⟨S3200000x1, .f32⟩
  | 3 => ⟨S50000, .i32⟩
  | 4 => ⟨S5x64, .f32⟩
  | 5 => ⟨S64, .f32⟩
  | 6 => ⟨S64x64, .f32⟩
  | 7 => ⟨S64, .f32⟩
  | 8 => ⟨S64x2, .f32⟩
  | 9 => ⟨S2, .f32⟩
  | 10 => ⟨S3200000, .f32⟩
  | 11 => ⟨S50000, .i32⟩
  | 12 => ⟨S1x3200000, .i32⟩
  | 13 => ⟨S3200000, .i32⟩
  | 14 => ⟨S3250000, .i32⟩
  | 15 => ⟨S1x3200000, .i32⟩
  | 16 => ⟨S3200000, .i32⟩
  | 17 => ⟨S3250000, .i32⟩
  | 18 => ⟨S_, .f32⟩
  | 19 => ⟨S50000, .f32⟩
  | 20 => ⟨S3250000, .f32⟩
  | 21 => ⟨S_, .f32⟩
  | 22 => ⟨S50000, .f32⟩
  | 23 => ⟨S3250000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .i1⟩
  | 31 => ⟨S_, .f32⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S3250000, .i32⟩
  | 42 => ⟨S3250000, .i1⟩
  | 43 => ⟨S_, .i32⟩
  | 44 => ⟨S3250000, .i32⟩
  | 45 => ⟨S3250000, .i32⟩
  | 46 => ⟨S3250000, .i32⟩
  | 47 => ⟨S3250000x1, .i32⟩
  | 48 => ⟨S3250000, .f32⟩
  | 49 => ⟨S3250000, .f32⟩
  | 50 => ⟨S_, .i32⟩
  | 51 => ⟨S3250000, .i32⟩
  | 52 => ⟨S3250000, .i1⟩
  | 53 => ⟨S_, .i32⟩
  | 54 => ⟨S3250000, .i32⟩
  | 55 => ⟨S3250000, .i32⟩
  | 56 => ⟨S3250000, .i32⟩
  | 57 => ⟨S3250000x1, .i32⟩
  | 58 => ⟨S3250000, .f32⟩
  | 59 => ⟨S3250000, .f32⟩
  | 60 => ⟨S50000x64, .f32⟩
  | 61 => ⟨S_, .i32⟩
  | 62 => ⟨S3250000, .i32⟩
  | 63 => ⟨S3250000, .i1⟩
  | 64 => ⟨S_, .i32⟩
  | 65 => ⟨S3250000, .i32⟩
  | 66 => ⟨S3250000, .i32⟩
  | 67 => ⟨S3250000, .i32⟩
  | 68 => ⟨S3250000x1, .i32⟩
  | 69 => ⟨S3250000x64, .f32⟩
  | 70 => ⟨S3250000x1, .f32⟩
  | 71 => ⟨S3250000x64, .f32⟩
  | 72 => ⟨S3250000x64, .f32⟩
  | 73 => ⟨S_, .f32⟩
  | 74 => ⟨S50000x64, .f32⟩
  | 75 => ⟨S3250000x1, .i32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S_, .f32⟩
  | 84 => ⟨S50000, .f32⟩
  | 85 => ⟨S3250000x1, .i32⟩
  | 86 => ⟨S50000, .f32⟩
  | 87 => ⟨S_, .f32⟩
  | 88 => ⟨S50000, .f32⟩
  | 89 => ⟨S50000, .i1⟩
  | 90 => ⟨S_, .f32⟩
  | 91 => ⟨S50000, .f32⟩
  | 92 => ⟨S50000, .i1⟩
  | 93 => ⟨S_, .f32⟩
  | 94 => ⟨S_, .f32⟩
  | 95 => ⟨S50000, .f32⟩
  | 96 => ⟨S50000, .f32⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S3250000, .i32⟩
  | 104 => ⟨S3250000, .i1⟩
  | 105 => ⟨S_, .i32⟩
  | 106 => ⟨S3250000, .i32⟩
  | 107 => ⟨S3250000, .i32⟩
  | 108 => ⟨S3250000, .i32⟩
  | 109 => ⟨S3250000x1, .i32⟩
  | 110 => ⟨S3250000, .f32⟩
  | 111 => ⟨S3250000, .f32⟩
  | 112 => ⟨S_, .i32⟩
  | 113 => ⟨S3250000, .i32⟩
  | 114 => ⟨S3250000, .i1⟩
  | 115 => ⟨S_, .i32⟩
  | 116 => ⟨S3250000, .i32⟩
  | 117 => ⟨S3250000, .i32⟩
  | 118 => ⟨S3250000, .i32⟩
  | 119 => ⟨S3250000x1, .i32⟩
  | 120 => ⟨S3250000, .f32⟩
  | 121 => ⟨S3250000, .f32⟩
  | 122 => ⟨S50000x64, .f32⟩
  | 123 => ⟨S_, .i32⟩
  | 124 => ⟨S3250000, .i32⟩
  | 125 => ⟨S3250000, .i1⟩
  | 126 => ⟨S_, .i32⟩
  | 127 => ⟨S3250000, .i32⟩
  | _ => ⟨S50000x5, .f32⟩

abbrev hbmTy0_1 (i : Nat) : BufTy := match i % 128 with
  | 0 => ⟨S3250000, .i32⟩
  | 1 => ⟨S3250000, .i32⟩
  | 2 => ⟨S3250000x1, .i32⟩
  | 3 => ⟨S3250000x64, .f32⟩
  | 4 => ⟨S3250000x1, .f32⟩
  | 5 => ⟨S3250000x64, .f32⟩
  | 6 => ⟨S3250000x64, .f32⟩
  | 7 => ⟨S_, .f32⟩
  | 8 => ⟨S50000x64, .f32⟩
  | 9 => ⟨S3250000x1, .i32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S_, .f32⟩
  | 18 => ⟨S50x64, .f32⟩
  | 19 => ⟨S50000x1, .i32⟩
  | 20 => ⟨S50x64, .f32⟩
  | 21 => ⟨S_, .f32⟩
  | 22 => ⟨S50000, .f32⟩
  | 23 => ⟨S_, .f32⟩
  | 24 => ⟨S50, .f32⟩
  | 25 => ⟨S50000x1, .i32⟩
  | 26 => ⟨S50, .f32⟩
  | 27 => ⟨S_, .f32⟩
  | 28 => ⟨S50, .f32⟩
  | 29 => ⟨S50, .f32⟩
  | 30 => ⟨S50x1, .f32⟩
  | 31 => ⟨S50x64, .f32⟩
  | 32 => ⟨S50x64, .f32⟩
  | 33 => ⟨S50x2, .f32⟩
  | 34 => ⟨S1x2, .f32⟩
  | 35 => ⟨S50x2, .f32⟩
  | 36 => ⟨S50x2, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_call3_v0 : Ref sig .tc := ⟨.hbm, 94, rfl⟩
abbrev main_call3_v1 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_call4_v0 : Ref sig .tc := ⟨.hbm, 99, rfl⟩
abbrev main_call4_v1 : Ref sig .tc := ⟨.hbm, 100, rfl⟩
abbrev main_v63 : Ref sig .tc := ⟨.hbm, 101, rfl⟩
abbrev main_c_16 : Ref sig .tc := ⟨.hbm, 102, rfl⟩
abbrev main_v64 : Ref sig .tc := ⟨.hbm, 103, rfl⟩
abbrev main_v65 : Ref sig .tc := ⟨.hbm, 104, rfl⟩
abbrev main_c_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_18 : Ref sig .tc := ⟨.hbm, 112, rfl⟩
abbrev main_v72 : Ref sig .tc := ⟨.hbm, 113, rfl⟩
abbrev main_v73 : Ref sig .tc := ⟨.hbm, 114, rfl⟩
abbrev main_c_19 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_20 : Ref sig .tc := ⟨.hbm, 123, rfl⟩
abbrev main_v81 : Ref sig .tc := ⟨.hbm, 124, rfl⟩
abbrev main_v82 : Ref sig .tc := ⟨.hbm, 125, rfl⟩
abbrev main_c_21 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_22 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_call5_cst : Ref sig .tc := ⟨.hbm, 142, rfl⟩
abbrev main_call5_v0 : Ref sig .tc := ⟨.hbm, 143, rfl⟩
abbrev main_v97 : Ref sig .tc := ⟨.hbm, 144, rfl⟩
abbrev main_cst_23 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_24 : Ref sig .tc := ⟨.hbm, 149, rfl⟩
abbrev main_v101 : Ref sig .tc := ⟨.hbm, 150, rfl⟩
abbrev main_cst_25 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_26 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩

abbrev nD : Nat := 1
abbrev τ : Topo := Topo.v7x

variable {F : FTy → Type} [FloatOps F]

class Facts₀ : Prop where
  shapeCasts_S3200000x1_S3200000 : S3200000x1.ShapeCasts S3200000
  slices_S2x3200000_S1x3200000_0_0 : S2x3200000.Slices ![0, 0] S1x3200000
  shapeCasts_S1x3200000_S3200000 : S1x3200000.ShapeCasts S3200000
  concatenates_S3200000_S50000_S3250000_d0 : Shape.Concatenates [S3200000, S50000] S3250000 0
  slices_S2x3200000_S1x3200000_1_0 : S2x3200000.Slices ![1, 0] S1x3200000
  bcast_S_S50000 : S_.BroadcastsInDim S50000 (![] : Fin 0 → Fin S50000.rank)
  bcast_S3250000_S3250000x1_0 : S3250000.BroadcastsInDim S3250000x1 (![0] : Fin 1 → Fin S3250000x1.rank)
  bcast_S_S3250000 : S_.BroadcastsInDim S3250000 (![] : Fin 0 → Fin S3250000.rank)
  bcast_S3250000x1_S3250000x64_0_1 : S3250000x1.BroadcastsInDim S3250000x64 (![0, 1] : Fin 2 → Fin S3250000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50x64 : S_.BroadcastsInDim S50x64 (![] : Fin 0 → Fin S50x64.rank)
  bcast_S50000_S50000x1_0 : S50000.BroadcastsInDim S50000x1 (![0] : Fin 1 → Fin S50000x1.rank)
  bcast_S_S50 : S_.BroadcastsInDim S50 (![] : Fin 0 → Fin S50.rank)
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  bcast_S2_S1x2_1 : S2.BroadcastsInDim S1x2 (![1] : Fin 1 → Fin S1x2.rank)
  bcast_S1x2_S50x2_0_1 : S1x2.BroadcastsInDim S50x2 (![0, 1] : Fin 2 → Fin S50x2.rank)
  scatter_S50000_S3250000x1_S3250000_n_0_0_1_wf : ScatterDims.WF S50000 S3250000x1 S3250000 [] [0] [0] 1
  gather_S50000_S3250000x1_S3250000_n_0_n_n_0_1_1_wf : GatherDims.WF S50000 S3250000x1 S3250000 [] [0] [] [0] [] 1 ![1]
  dot_S50000x5_S5x64_S50000x64_1_0_0_1_n_n_wf : DotDims.WF S50000x5 S5x64 S50000x64 [1] [0] [0] [1] [] []
  gather_S50000x64_S3250000x1_S3250000x64_1_0_n_n_0_1_164_wf : GatherDims.WF S50000x64 S3250000x1 S3250000x64 [1] [0] [] [0] [] 1 ![1, 64]
  scatter_S50000x64_S3250000x1_S3250000x64_1_0_0_1_wf : ScatterDims.WF S50000x64 S3250000x1 S3250000x64 [1] [0] [0] 1
  dot_S50000x64_S64x64_S50000x64_1_0_0_1_n_n_wf : DotDims.WF S50000x64 S64x64 S50000x64 [1] [0] [0] [1] [] []
  scatter_S50x64_S50000x1_S50000x64_1_0_0_1_wf : ScatterDims.WF S50x64 S50000x1 S50000x64 [1] [0] [0] 1
  scatter_S50_S50000x1_S50000_n_0_0_1_wf : ScatterDims.WF S50 S50000x1 S50000 [] [0] [0] 1
  dot_S50x64_S64x2_S50x2_1_0_0_1_n_n_wf : DotDims.WF S50x64 S64x2 S50x2 [1] [0] [0] [1] [] []

variable [Facts₀]

def scatter_S50000_S3250000x1_S3250000_n_0_0_1 : ScatterDims S50000 S3250000x1 S3250000 where
  updateWindowDims := []
  insertedWindowDims := [0]
  scatterDimsToOperandDims := [0]
  indexVectorDim := 1
  wf := scatter_S50000_S3250000x1_S3250000_n_0_0_1_wf
def gather_S50000_S3250000x1_S3250000_n_0_n_n_0_1_1 : GatherDims S50000 S3250000x1 S3250000 where
  offsetDims := []
  collapsedSliceDims := [0]
  operandBatchingDims := []
  startIndicesBatchingDims := []
  startIndexMap := [0]
  indexVectorDim := 1
  sliceSizes := ![1]
  wf := gather_S50000_S3250000x1_S3250000_n_0_n_n_0_1_1_wf
def dot_S50000x5_S5x64_S50000x64_1_0_0_1_n_n : DotDims S50000x5 S5x64 S50000x64 where
  lhsContracting := [1]
  rhsContracting := [0]
  lhsNonContracting := [0]
  rhsNonContracting := [1]
  lhsBatch := []
  rhsBatch := []
  wf := dot_S50000x5_S5x64_S50000x64_1_0_0_1_n_n_wf
def gather_S50000x64_S3250000x1_S3250000x64_1_0_n_n_0_1_164 : GatherDims S50000x64 S3250000x1 S3250000x64 where
  offsetDims := [1]
  collapsedSliceDims := [0]
  operandBatchingDims := []
  startIndicesBatchingDims := []
  startIndexMap := [0]
  indexVectorDim := 1
  sliceSizes := ![1, 64]
  wf := gather_S50000x64_S3250000x1_S3250000x64_1_0_n_n_0_1_164_wf
def scatter_S50000x64_S3250000x1_S3250000x64_1_0_0_1 : ScatterDims S50000x64 S3250000x1 S3250000x64 where
  updateWindowDims := [1]
  insertedWindowDims := [0]
  scatterDimsToOperandDims := [0]
  indexVectorDim := 1
  wf := scatter_S50000x64_S3250000x1_S3250000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50x64_S50000x1_S50000x64_1_0_0_1 : ScatterDims S50x64 S50000x1 S50000x64 where
  updateWindowDims := [1]
  insertedWindowDims := [0]
  scatterDimsToOperandDims := [0]
  indexVectorDim := 1
  wf := scatter_S50x64_S50000x1_S50000x64_1_0_0_1_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def dot_S50x64_S64x2_S50x2_1_0_0_1_n_n : DotDims S50x64 S64x2 S50x2 where
  lhsContracting := [1]
  rhsContracting := [0]
  lhsNonContracting := [0]
  rhsNonContracting := [1]
  lhsBatch := []
  rhsBatch := []
  wf := dot_S50x64_S64x2_S50x2_1_0_0_1_n_n_wf

class Facts : Prop extends Facts₀ where

variable [Facts]
-- ==== Proof.KRun.lean ====
/-
  The kernel program's run with its result named.

  The program is five kernel regions among stretches of host operations. Every weakly fair execution terminates
  without a fault; the buffer the program returns ends at what the last region's write-backs leave in its output
  array, and the ten argument arrays end as launched. The contents at each boundary between segments are the fold
  `W0 … W13` of the generated frame module; this is that module's launch over the same segments, with the final
  thread state read at the result buffer as well as at the arguments.
-/
import proofs.«125872_j46729244180997_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the returned buffer holds the last
    region's output array as its write-backs leave it, and the arguments are unchanged. -/
theorem run_value : θ_run defs (onTc (τ := τ) (main (F := F))) ⟨m, fun _ => 0, ρ⟩ (fun r => ∀ c : Dev nD,
      r.2.mem ((c.tc : Thread nD τ).loc main_v66) = (dat4 (V12 m ρ) c).arrAt 3 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨(h c _ (mem_uc main_v66 (by decide))).trans (W13_arr m ρ c 3),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Gen

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.Spec.lean ====
/-
  The graph-convolution network both programs compute, written entry by entry on the extended reals.

  There are 50000 nodes, 3250000 edges (the given ones followed by one loop per node), 64 hidden features and 50
  graphs. An edge `e` reads the row `rowOf src e` of a node table — its source number read as a signed integer and
  clamped into 0 … 49999 — and its message is added onto node `r` exactly when its target number, read signed, is `r`
  (`lands dst e r`); an edge whose target number is no node's is dropped.

  One layer, from the node features `H` already multiplied by the layer's weights, the per-node factor `dinv`
  (the inverse square root of the weighted in-degree, or zero), the edge weights `ew` and the bias `b`:
  * `layerSplit` scales node `s`'s row by `dinv s` first, adds up `row · ew e` over the edges landing on `r`, scales
    the total by `dinv r`, adds the bias and takes the maximum with zero;
  * `layerEdge` gives each edge the one factor `(dinv s · ew e) · dinv t` (`t` the clamped, wrapped target number),
    adds up `H-row · factor`, adds the bias and takes the maximum with zero.
  `layer_eq` says they agree whenever every `dinv r` is a nonnegative real number and an edge landing on `r` has
  `t = r`: a nonnegative real factor distributes over any sum of extended reals, and the rest is associativity.
-/
import proofs.«125872_j46729244180997_2_alg».proof.Proof.LibRowsTimes
import Idealize.ShloMosaic.PureOps.Ideal
import Idealize.ShloMosaic.Lib.ValueIdx

noncomputable section

namespace Cert.Gcn

open Idealize.ShloMosaic Idealize.ShloMosaic.ValueIdx Cert.Dense

/-- A column of 3250000 row numbers, one per edge. -/
abbrev Col : Type := IVec ⟨2, ![3250000, 1]⟩ 32

/-- The f32 word of zero at the extended reals (the same word wherever it is printed; it is the number 0). -/
abbrev zeroW : EReal := Ideal.ofBits .f32 0x00000000#32

/-- The node whose row edge `e` reads: its number read signed and clamped into 0 … 49999. -/
def rowOf (idx : Col) (e : Fin 3250000) : Fin 50000 :=
  ⟨min (idx (ix2 e (0 : Fin 1))).toInt.toNat (50000 - 1), by omega⟩

/-- Edge `e`'s message is added onto node `r`. -/
abbrev lands (idx : Col) (e : Fin 3250000) (r : Fin 50000) : Prop :=
  (idx (ix2 e (0 : Fin 1))).toInt = (r.val : Int)

/-- Node features times weights, each node's row then scaled by that node's entry of a one-column array. -/
def mmScale {K : Nat} (X : (⟨2, ![50000, K]⟩ : Shape).Idx → EReal) (W : (⟨2, ![K, 64]⟩ : Shape).Idx → EReal)
    (dcol : (⟨2, ![50000, 1]⟩ : Shape).Idx → EReal) : (⟨2, ![50000, 64]⟩ : Shape).Idx → EReal :=
  fun i => rowsTimes X W i * dcol (ix2 (i 0 : Fin 50000) (0 : Fin 1))

/-- Each node's row scaled by that node's entry of a one-column array, plus a bias row, then the maximum with zero. -/
def postScale (A : (⟨2, ![50000, 64]⟩ : Shape).Idx → EReal) (dcol : (⟨2, ![50000, 1]⟩ : Shape).Idx → EReal)
    (brow : (⟨2, ![1, 64]⟩ : Shape).Idx → EReal) : (⟨2, ![50000, 64]⟩ : Shape).Idx → EReal :=
  fun i => max (A i * dcol (ix2 (i 0 : Fin 50000) (0 : Fin 1)) + brow (ix2 (0 : Fin 1) (i 1 : Fin 64))) zeroW

/-- The last linear map: pooled features times weights plus a bias row. -/
def finalLin (P : (⟨2, ![50, 64]⟩ : Shape).Idx → EReal) (W : (⟨2, ![64, 2]⟩ : Shape).Idx → EReal)
    (brow : (⟨2, ![1, 2]⟩ : Shape).Idx → EReal) : (⟨2, ![50, 2]⟩ : Shape).Idx → EReal :=
  fun i => rowsTimes P W i + brow (ix2 (0 : Fin 1) (i 1 : Fin 2))

/-- One layer with the normalisation split into a source-side and a target-side node factor. -/
def layerSplit (H : (⟨2, ![50000, 64]⟩ : Shape).Idx → EReal) (dinv : (⟨1, ![50000]⟩ : Shape).Idx → EReal)
    (ew : (⟨1, ![3250000]⟩ : Shape).Idx → EReal) (src dst : Col) (b : (⟨1, ![64]⟩ : Shape).Idx → EReal) :
    (⟨2, ![50000, 64]⟩ : Shape).Idx → EReal :=
  fun i => max ((zeroW + ∑ e : Fin 3250000, if lands dst e (i 0 : Fin 50000) then
      (H (ix2 (rowOf src e) (i 1 : Fin 64)) * dinv (ix1 (rowOf src e))) * ew (ix1 e) else 0)
        * dinv (ix1 (i 0 : Fin 50000)) + b (ix1 (i 1 : Fin 64))) zeroW

/-- One layer with one normalisation factor per edge. -/
def layerEdge (H : (⟨2, ![50000, 64]⟩ : Shape).Idx → EReal) (dinv : (⟨1, ![50000]⟩ : Shape).Idx → EReal)
    (ew : (⟨1, ![3250000]⟩ : Shape).Idx → EReal) (src dst dstN : Col) (b : (⟨1, ![64]⟩ : Shape).Idx → EReal) :
    (⟨2, ![50000, 64]⟩ : Shape).Idx → EReal :=
  fun i => max ((zeroW + ∑ e : Fin 3250000, if lands dst e (i 0 : Fin 50000) then
      H (ix2 (rowOf src e) (i 1 : Fin 64)) * ((dinv (ix1 (rowOf src e)) * ew (ix1 e)) * dinv (ix1 (rowOf dstN e))) else 0)
        + b (ix1 (i 1 : Fin 64))) zeroW

end Cert.Gcn

end
-- ==== Proof.LibRowGather.lean ====
/-
  A general fact about gathering whole rows of a matrix.

  Take a table with N rows and C columns and a column of R start indices (an R × 1 integer array). Gathering with one
  collapsed axis (the rows), one offset axis (the columns), the start index naming the row axis and slices of one
  whole row produces an R × C array whose entry (r, o) is the table's entry (k, o), where k is the r-th start index
  read as a signed integer and clamped into 0 … N − 1. Nothing here depends on a particular program.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a whole-row gather from an `N × C` table at an `R × 1` column of start indices. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, o)` of a whole-row gather is the table's entry `(k, o)`, `k` the `r`-th start index read signed and
    clamped into `0 … N − 1`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (o : Fin C) :
    Host.gather (rowDims N R C wf) x idx (ix2 r o)
      = x (ix2 (⟨min (idx (ix2 r (0 : Fin 1))).toInt.toNat (N - 1), by omega⟩ : Fin N) o) := by
  unfold Host.gather
  congr 1
  funext a
  refine Fin.ext ?_
  match a with
  | ⟨0, _⟩ =>
    show (rowDims N R C wf).start (ix2 r o) idx 0 + (rowDims N R C wf).batchCoord (ix2 r o) 0
        + (rowDims N R C wf).offCoord (ix2 r o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r o) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r o) idx 1 + (rowDims N R C wf).batchCoord (ix2 r o) 1
        + (rowDims N R C wf).offCoord (ix2 r o) 1 = o.val
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

end Idealize.ShloMosaic.RowGather

end
-- ==== Proof.LibRowScatterAdd.lean ====
/-
  A general fact about accumulating rows into a matrix.

  Take an operand with N rows and C columns, a column of R row numbers (an R × 1 integer array) and an R × C array of
  update rows. Scattering with one window axis (the columns), one inserted axis (the rows) and the row number naming
  the row axis adds update row e onto operand row k, where k is the e-th row number read as a signed integer; a row
  number outside 0 … N − 1 drops its update row. On the extended reals the result at (r, c) is therefore the operand's
  entry plus the sum, over the update rows e whose row number is r, of the update entry (e, c). Nothing here depends on
  a particular program.
-/
import Idealize.ShloMosaic.PureOps.Ideal
import Idealize.ShloMosaic.Lib.ValueIdx

noncomputable section

namespace Idealize.ShloMosaic.RowScatter

open Idealize.ShloMosaic Idealize.ShloMosaic.ValueIdx

/-- The dimension numbers of a whole-row accumulation into an `N × C` operand at an `R × 1` column of row numbers. -/
abbrev rowDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the row axis the window of update entry `(e, c)` starts at the `e`-th row number, read signed. -/
theorem start_row (idx : IVec ⟨2, ![R, 1]⟩ w) (e : Fin R) (c : Fin C) :
    (rowDims N R C wf).start (ix2 e c) idx 0 = (idx (ix2 e (0 : Fin 1))).toInt := by
  unfold ScatterDims.start
  rw [dif_pos (show (0 : Fin 2) ∈ (rowDims N R C wf).scatterDimsToOperandDims from List.mem_singleton.mpr rfl)]
  have hsi : (rowDims N R C wf).siIdx (ix2 e c) ⟨List.idxOf (0 : Fin 2) (rowDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at 0. -/
theorem start_col (idx : IVec ⟨2, ![R, 1]⟩ w) (j : (⟨2, ![R, C]⟩ : Shape).Idx) :
    (rowDims N R C wf).start j idx 1 = 0 := by
  unfold ScatterDims.start
  rw [dif_neg (show ¬ (1 : Fin 2) ∈ (rowDims N R C wf).scatterDimsToOperandDims from
    fun h => absurd (List.mem_singleton.mp h) (show ¬ (1 : Fin 2) = 0 by decide))]

/-- The operand's axes that are not inserted: the columns only. -/
theorem sKept_eq : (rowDims N R C wf).sKept = [(1 : Fin 2)] := rfl

/-- The row axis is inserted: no window coordinate. -/
theorem window_row (j : (⟨2, ![R, C]⟩ : Shape).Idx) : (rowDims N R C wf).window j 0 = 0 := by
  unfold ScatterDims.window
  rw [dif_neg (show ¬ (0 : Fin 2) ∈ (rowDims N R C wf).sKept from by
    rw [sKept_eq]; exact fun h => absurd (List.mem_singleton.mp h) (show ¬ (0 : Fin 2) = 1 by decide))]

/-- The column axis carries the update's column. -/
theorem window_col (e : Fin R) (c : Fin C) : (rowDims N R C wf).window (ix2 e c) 1 = c.val := by
  unfold ScatterDims.window
  rw [dif_pos (show (1 : Fin 2) ∈ (rowDims N R C wf).sKept from by
    rw [sKept_eq]; exact List.mem_singleton.mpr rfl)]
  rfl

/-- WHERE AN UPDATE ENTRY LANDS: update entry `(e, c)` lands on operand entry `i` exactly when the `e`-th row number, read
    signed, is `i`'s row and `c` is `i`'s column. (A row number outside the operand lands nowhere.) -/
theorem resultIdx?_eq_some_iff (idx : IVec ⟨2, ![R, 1]⟩ w) (e : Fin R) (c : Fin C) (i : (⟨2, ![N, C]⟩ : Shape).Idx) :
    (rowDims N R C wf).resultIdx? (ix2 e c) idx = some i
      ↔ (idx (ix2 e (0 : Fin 1))).toInt = ((i 0).val : Int) ∧ c.val = (i 1).val := by
  have hs0 := start_row wf idx e c
  have hs1 := start_col wf idx (ix2 e c)
  have hw0 := window_row wf (ix2 e c)
  have hw1 := window_col wf e c
  have hi0 : (i 0).val < N := (i 0).isLt
  have hi1 : (i 1).val < C := (i 1).isLt
  have hc : c.val < C := c.isLt
  unfold ScatterDims.resultIdx?
  split
  · rename_i h
    rw [Option.some.injEq]
    have h0 := h 0
    rw [hs0, hw0] at h0
    constructor
    · intro he
      have e0 : ((rowDims N R C wf).start (ix2 e c) idx 0 + ((rowDims N R C wf).window (ix2 e c) 0 : Nat)).toNat = (i 0).val :=
        congrArg (fun f : (⟨2, ![N, C]⟩ : Shape).Idx => (f 0).val) he
      have e1 : ((rowDims N R C wf).start (ix2 e c) idx 1 + ((rowDims N R C wf).window (ix2 e c) 1 : Nat)).toNat = (i 1).val :=
        congrArg (fun f : (⟨2, ![N, C]⟩ : Shape).Idx => (f 1).val) he
      rw [hs0, hw0] at e0
      rw [hs1, hw1] at e1
      constructor <;> omega
    · rintro ⟨g0, g1⟩
      funext a; apply Fin.ext
      match a with
      | ⟨0, _⟩ =>
        show ((rowDims N R C wf).start (ix2 e c) idx 0 + ((rowDims N R C wf).window (ix2 e c) 0 : Nat)).toNat = (i 0).val
        rw [hs0, hw0]; omega
      | ⟨1, _⟩ =>
        show ((rowDims N R C wf).start (ix2 e c) idx 1 + ((rowDims N R C wf).window (ix2 e c) 1 : Nat)).toNat = (i 1).val
        rw [hs1, hw1]; omega
  · rename_i h
    constructor
    · intro he; cases he
    · rintro ⟨g0, g1⟩
      exfalso; apply h
      intro a
      match a with
      | ⟨0, _⟩ =>
        show 0 ≤ (rowDims N R C wf).start (ix2 e c) idx 0 + ((rowDims N R C wf).window (ix2 e c) 0 : Nat)
          ∧ (rowDims N R C wf).start (ix2 e c) idx 0 + ((rowDims N R C wf).window (ix2 e c) 0 : Nat) < (N : Int)
        rw [hs0, hw0]; omega
      | ⟨1, _⟩ =>
        show 0 ≤ (rowDims N R C wf).start (ix2 e c) idx 1 + ((rowDims N R C wf).window (ix2 e c) 1 : Nat)
          ∧ (rowDims N R C wf).start (ix2 e c) idx 1 + ((rowDims N R C wf).window (ix2 e c) 1 : Nat) < (C : Int)
        rw [hs1, hw1]; omega

/-- THE ACCUMULATED ROWS AT AN ENTRY: the operand's entry plus the sum, over the update rows whose row number is
    `r`, of their entries in column `c`. -/
theorem scatterAdd_row_apply (x : (⟨2, ![N, C]⟩ : Shape).Idx → EReal) (idx : IVec ⟨2, ![R, 1]⟩ w)
    (upd : (⟨2, ![R, C]⟩ : Shape).Idx → EReal) (r : Fin N) (c : Fin C) :
    Ideal.hostScatterAdd (rowDims N R C wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  have hiff : ∀ c' : Fin C, ((rowDims N R C wf).resultIdx? (ix2 e c') idx = some (ix2 r c))
      ↔ ((idx (ix2 e (0 : Fin 1))).toInt = (r.val : Int) ∧ c' = c) := fun c' =>
    (resultIdx?_eq_some_iff wf idx e c' (ix2 r c)).trans (and_congr Iff.rfl Fin.val_inj)
  simp only [hiff]
  by_cases hr : (idx (ix2 e (0 : Fin 1))).toInt = (r.val : Int)
  · simp only [hr, true_and, if_true, Finset.sum_ite_eq', Finset.mem_univ]
  · simp only [hr, false_and, if_false, Finset.sum_const_zero]

/-- The same, spelt as the host's operation at the extended reals. -/
theorem host_scatterAdd_row_apply (x : FVec Ideal ⟨2, ![N, C]⟩ .f32) (idx : IVec ⟨2, ![R, 1]⟩ w)
    (upd : FVec Ideal ⟨2, ![R, C]⟩ .f32) (r : Fin N) (c : Fin C) :
    Host.scatterAdd (F := Ideal) (rowDims N R C wf) x idx upd (ix2 r c)
      = x (ix2 r c) + ∑ e : Fin R, if (idx (ix2 e (0 : Fin 1))).toInt = (r.val : Int) then upd (ix2 e c) else 0 :=
  scatterAdd_row_apply wf x idx upd r c

end Idealize.ShloMosaic.RowScatter

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.KLayer.lean ====
/-
  One layer of the kernel program's graph convolution, read entry by entry.

  The kernel program keeps the per-node factor `dinv` as a one-column array. A layer is: the node features times the
  weights with node `s`'s row scaled by `dinv s` (a kernel region, `mmScale`); then, on the host, every edge `e`
  gathers row `src e` of that table and multiplies it by its weight `ew e`, and every edge's row is added onto the row
  of the edge's target node, starting from a table of zeros; then node `r`'s row is scaled by `dinv r`, the bias row is
  added and the maximum with zero taken (a second kernel region, `postScale`).

  Read at a node `r` and a feature `j` this is the specification's `layerSplit`. A gather reads the row whose number is
  the start index read as a signed integer and clamped into 0 … 49999; the accumulation adds an edge's row onto node
  `r` exactly when the edge's target number, read signed, is `r`. The sum over the edges is never evaluated.
-/
import proofs.«125872_j46729244180997_2_alg».proof.Proof.Gen.KernelIdeal
import proofs.«125872_j46729244180997_2_alg».proof.Proof.Spec
import proofs.«125872_j46729244180997_2_alg».proof.Proof.LibRowGather
import proofs.«125872_j46729244180997_2_alg».proof.Proof.LibRowScatterAdd
import proofs.«125872_j46729244180997_2_alg».proof.Proof.LibHostColumn
import Idealize.ShloMosaic.Lib.Pipeline.Value
import Idealize.ShloMosaic.Lib.ValueIdx
import Idealize.ShloMosaic.Lib.ValueLayout

noncomputable section

namespace Cert.KernelIdeal.KValue

open Cert.KernelIdeal Cert.KernelIdeal.Gen Cert.Gcn Cert.Dense
open Idealize.ShloMosaic Idealize.ShloMosaic.ValueIdx

/-- The printed record of the whole-row gather is the general one. -/
theorem rowGather_rec : gather_S50000x64_S3250000x1_S3250000x64_1_0_n_n_0_1_164
    = RowGather.rowDims 50000 3250000 64 gather_S50000x64_S3250000x1_S3250000x64_1_0_n_n_0_1_164_wf := rfl

/-- The printed record of the whole-row accumulation is the general one. -/
theorem rowScatter_rec : scatter_S50000x64_S3250000x1_S3250000x64_1_0_0_1
    = RowScatter.rowDims 50000 3250000 64 scatter_S50000x64_S3250000x1_S3250000x64_1_0_0_1_wf := rfl

variable (HS : FVec Ideal S50000x64 .f32) (D : FVec Ideal S50000 .f32) (EW : FVec Ideal S3250000 .f32)
  (SRC DST : IVec S3250000x1 32) (b : FVec Ideal S64 .f32)

/-- The host operations between the two regions of a layer: gather the rows at `SRC`, multiply by the edge weights
    repeated across the features, add onto the rows named by `DST` starting from zeros. -/
def aggOps : FVec Ideal S50000x64 .f32 :=
  Host.scatterAdd (F := Ideal) scatter_S50000x64_S3250000x1_S3250000x64_1_0_0_1
    (broadcastInDim S50000x64 ![] bcast_S_S50000x64 (constant (F := Ideal) S_ .f32 0x00000000#32)) DST
    (mulf (Host.gather gather_S50000x64_S3250000x1_S3250000x64_1_0_n_n_0_1_164 HS SRC)
      (broadcastInDim S3250000x64 ![0, 1] bcast_S3250000x1_S3250000x64_0_1
        (broadcastInDim S3250000x1 ![0] bcast_S3250000_S3250000x1_0 EW)))

/-- The per-node factor kept as a one-column array. -/
def dcolOf : FVec Ideal S50000x1 .f32 := broadcastInDim S50000x1 ![0] bcast_S50000_S50000x1_0 D

/-- The bias kept as a one-row array. -/
def browOf : FVec Ideal S1x64 .f32 := shapeCast S1x64 b shapeCasts_S64_S1x64

/-- The one-column array reads the vector at the row. -/
theorem dcolOf_apply (r : Fin 50000) (u : Fin 1) : dcolOf D (ix2 r u) = D (ix1 r) :=
  broadcastInDim_apply _ bcast_S50000_S50000x1_0 D (ix2 r u) (ix1 r) (fun a => by
    match a with
    | ⟨0, _⟩ => rfl)

/-- The one-row array reads the vector at the column. -/
theorem browOf_apply (u : Fin 1) (j : Fin 64) : browOf b (ix2 u j) = b (ix1 j) :=
  shapeCast_a_1a_apply b shapeCasts_S64_S1x64 u j

/-- The table of zeros the accumulation starts from, at an entry. -/
theorem zeroFill_apply (i : S50000x64.Idx) :
    broadcastInDim S50000x64 ![] bcast_S_S50000x64 (constant (F := Ideal) S_ .f32 0x00000000#32) i = zeroW :=
  broadcastInDim_apply _ bcast_S_S50000x64 _ i (fun a => a.elim0) (fun a => a.elim0)

/-- The gathered rows: edge `e` reads row `rowOf SRC e`. -/
theorem rowsOf_apply (e : Fin 3250000) (j : Fin 64) :
    Host.gather gather_S50000x64_S3250000x1_S3250000x64_1_0_n_n_0_1_164 HS SRC (ix2 e j) = HS (ix2 (rowOf SRC e) j) := by
  rw [rowGather_rec]
  exact RowGather.gather_row_apply (by decide) _ HS SRC e j

/-- A per-edge vector laid out as a column and repeated across the features, at an entry. -/
theorem edgeColumn_apply (v : FVec Ideal S3250000 .f32) (e : Fin 3250000) (j : Fin 64) :
    broadcastInDim S3250000x64 ![0, 1] bcast_S3250000x1_S3250000x64_0_1
      (broadcastInDim S3250000x1 ![0] bcast_S3250000_S3250000x1_0 v) (ix2 e j) = v (ix1 e) :=
  HostColumn.column_apply v bcast_S3250000_S3250000x1_0 bcast_S3250000x1_S3250000x64_0_1 e j

/-- The accumulated rows at an entry: the operand's entry plus the sum over the edges landing on the row. -/
theorem rowsAdded_apply (x : FVec Ideal S50000x64 .f32) (upd : FVec Ideal S3250000x64 .f32) (r : Fin 50000) (j : Fin 64) :
    Host.scatterAdd (F := Ideal) scatter_S50000x64_S3250000x1_S3250000x64_1_0_0_1 x DST upd (ix2 r j)
      = x (ix2 r j) + ∑ e : Fin 3250000, if lands DST e r then upd (ix2 e j) else 0 := by
  rw [rowScatter_rec]
  exact RowScatter.host_scatterAdd_row_apply _ x DST upd r j

/-- The host operations between the regions, at an entry. -/
theorem aggOps_apply (r : Fin 50000) (j : Fin 64) :
    aggOps HS EW SRC DST (ix2 r j)
      = zeroW + ∑ e : Fin 3250000, if lands DST e r then HS (ix2 (rowOf SRC e) j) * EW (ix1 e) else 0 := by
  unfold aggOps
  rw [rowsAdded_apply, zeroFill_apply]
  refine congrArg (fun s => zeroW + s) (Finset.sum_congr rfl fun e _ => ?_)
  by_cases h : lands DST e r
  · rw [if_pos h, if_pos h, mulf_apply, rowsOf_apply, edgeColumn_apply]
  · rw [if_neg h, if_neg h]

/-- A whole layer of the kernel program — the product region, the host operations, the scale region — is the
    specification's layer with the normalisation split into two node factors. -/
theorem kernel_layer {K : Nat} (X : (⟨2, ![50000, K]⟩ : Shape).Idx → EReal) (W : (⟨2, ![K, 64]⟩ : Shape).Idx → EReal) :
    postScale (aggOps (mmScale X W (dcolOf D)) EW SRC DST) (dcolOf D) (browOf b)
      = layerSplit (rowsTimes X W) D EW SRC DST b := by
  funext i
  obtain ⟨r, j, rfl⟩ : ∃ (r : Fin 50000) (j : Fin 64), i = ix2 r j := ⟨i 0, i 1, eq_ix2 i⟩
  show max (aggOps (mmScale X W (dcolOf D)) EW SRC DST (ix2 r j) * dcolOf D (ix2 r (0 : Fin 1))
      + browOf b (ix2 (0 : Fin 1) j)) zeroW = _
  rw [aggOps_apply, dcolOf_apply, browOf_apply]
  unfold layerSplit
  refine congrArg (fun s => max ((zeroW + s) * D (ix1 r) + b (ix1 j)) zeroW) (Finset.sum_congr rfl fun e _ => ?_)
  by_cases h : lands DST e r
  · rw [if_pos h]
    show mmScale X W (dcolOf D) (ix2 (rowOf SRC e) j) * EW (ix1 e) = _
    show (rowsTimes X W (ix2 (rowOf SRC e) j) * dcolOf D (ix2 (rowOf SRC e) (0 : Fin 1))) * EW (ix1 e) = _
    rw [dcolOf_apply]
    exact (if_pos h).symm
  · rw [if_neg h]
    exact (if_neg h).symm

end Cert.KernelIdeal.KValue

end
-- ==== Proof.KPrefix.lean ====
/-
  The kernel program's buffers when its first region is entered.

  Before the first region the host operations build, from the edge list and the edge weights, the source and target
  numbers with one loop edge per node appended, the edge weights with a one appended per loop edge, the weighted
  in-degree of every node, and the per-node factor: the inverse square root of the degree where the degree is
  positive, zero elsewhere. These are the same operations on the same arguments as the reference program's first
  twenty stages, so each buffer holds the reference's stage of the same number; the argument arrays are untouched.
  The contents are followed one stretch of operations at a time: what a stretch leaves in a buffer is its operation
  applied to what the previous stretch left in the operands.
-/
import proofs.«125872_j46729244180997_2_alg».proof.Proof.Gen.KernelIdeal.Frame
import proofs.«125872_j46729244180997_2_alg».proof.Proof.Gen.ReferenceIdeal.Read
import proofs.«125872_j46729244180997_2_alg».proof.Proof.KLayer
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch -/

theorem W1_v4 : W1 m ρ c (Proc.devRef .tc main_v4) = Cert.ReferenceIdeal.Read.val_main_v4 (F := Ideal) (m ((c : Thread nD τ).loc main_arg1)) := by
  dsimp only [W1, W0]
  after_results
  rfl

theorem W1_v7 : W1 m ρ c (Proc.devRef .tc main_v7) = Cert.ReferenceIdeal.Read.val_main_v7 (F := Ideal) (m ((c : Thread nD τ).loc main_arg1)) := by
  dsimp only [W1, W0]
  after_results
  rfl

theorem W1_v9 : W1 m ρ c (Proc.devRef .tc main_v9) = Cert.ReferenceIdeal.Read.val_main_v9 (F := Ideal) (m ((c : Thread nD τ).loc main_arg2)) := by
  dsimp only [W1, W0]
  after_results
  rfl

theorem W1_v12 : W1 m ρ c (Proc.devRef .tc main_v12) = Cert.ReferenceIdeal.Read.val_main_v12 (F := Ideal) (m ((c : Thread nD τ).loc main_arg1)) (m ((c : Thread nD τ).loc main_arg2)) := by
  dsimp only [W1, W0]
  after_results
  rfl

theorem W1_v14 : W1 m ρ c (Proc.devRef .tc main_v14) = Cert.ReferenceIdeal.Read.val_main_v14 (F := Ideal) (m ((c : Thread nD τ).loc main_arg1)) (m ((c : Thread nD τ).loc main_arg2)) := by
  dsimp only [W1, W0]
  after_results
  rfl

theorem W1_v16 : W1 m ρ c (Proc.devRef .tc main_v16) = Cert.ReferenceIdeal.Read.val_main_v16 (F := Ideal) (m ((c : Thread nD τ).loc main_arg1)) (m ((c : Thread nD τ).loc main_arg2)) := by
  dsimp only [W1, W0]
  after_results
  rfl

theorem W1_cst_3 : W1 m ρ c (Proc.devRef .tc main_cst_3) = Cert.ReferenceIdeal.Read.val_main_cst_3 (F := Ideal) := by
  dsimp only [W1, W0]
  after_results
  rfl

/-! ## Through the two selections and the inverse square root -/

theorem W2_v17 : W2 m ρ c (Proc.devRef .tc main_v17) = Cert.ReferenceIdeal.Read.val_main_v17 (F := Ideal) (m ((c : Thread nD τ).loc main_arg1)) (m ((c : Thread nD τ).loc main_arg2)) := by
  have e : W2 m ρ c (Proc.devRef .tc main_v17) = select (W1 m ρ c (Proc.devRef .tc main_v16)) (W1 m ρ c (Proc.devRef .tc main_v12))
      (broadcastInDim S50000 ![] bcast_S_S50000 (id (W1 m ρ c (Proc.devRef .tc main_cst_3)))) := by
    show after hostOps0_1 (W1 m ρ c) _ = _
    generalize W1 m ρ c = V
    after_results
    rfl
  rw [e, W1_v16, W1_v12, W1_cst_3]
  rfl

theorem W2_v14 : W2 m ρ c (Proc.devRef .tc main_v14) = Cert.ReferenceIdeal.Read.val_main_v14 (F := Ideal) (m ((c : Thread nD τ).loc main_arg1)) (m ((c : Thread nD τ).loc main_arg2)) := by
  have e : W2 m ρ c (Proc.devRef .tc main_v14) = W1 m ρ c (Proc.devRef .tc main_v14) := by
    show after hostOps0_1 (W1 m ρ c) _ = _
    generalize W1 m ρ c = V
    after_results
  rw [e, W1_v14]

theorem W3_v18 : W3 m ρ c (Proc.devRef .tc main_v18) = Cert.ReferenceIdeal.Read.val_main_v18 (F := Ideal) (m ((c : Thread nD τ).loc main_arg1)) (m ((c : Thread nD τ).loc main_arg2)) := by
  have e : W3 m ρ c (Proc.devRef .tc main_v18) = @Host.rsqrt Ideal _ S50000 .f32 (W2 m ρ c (Proc.devRef .tc main_v17)) := by
    show after hostOps0_2 (W2 m ρ c) _ = _
    generalize W2 m ρ c = V
    after_results
  rw [e, W2_v17]
  rfl

theorem W3_cst_4 : W3 m ρ c (Proc.devRef .tc main_cst_4) = Cert.ReferenceIdeal.Read.val_main_cst_4 (F := Ideal) := by
  show after hostOps0_2 (W2 m ρ c) _ = _
  generalize W2 m ρ c = V
  after_results
  rfl

theorem W3_v14 : W3 m ρ c (Proc.devRef .tc main_v14) = Cert.ReferenceIdeal.Read.val_main_v14 (F := Ideal) (m ((c : Thread nD τ).loc main_arg1)) (m ((c : Thread nD τ).loc main_arg2)) := by
  have e : W3 m ρ c (Proc.devRef .tc main_v14) = W2 m ρ c (Proc.devRef .tc main_v14) := by
    show after hostOps0_2 (W2 m ρ c) _ = _
    generalize W2 m ρ c = V
    after_results
  rw [e, W2_v14]

theorem W4_v19 : W4 m ρ c (Proc.devRef .tc main_v19) = Cert.ReferenceIdeal.Read.val_main_v19 (F := Ideal) (m ((c : Thread nD τ).loc main_arg1)) (m ((c : Thread nD τ).loc main_arg2)) := by
  have e : W4 m ρ c (Proc.devRef .tc main_v19) = select (W3 m ρ c (Proc.devRef .tc main_v14)) (W3 m ρ c (Proc.devRef .tc main_v18))
      (broadcastInDim S50000 ![] bcast_S_S50000 (id (W3 m ρ c (Proc.devRef .tc main_cst_4)))) := by
    show after hostOps0_3 (W3 m ρ c) _ = _
    generalize W3 m ρ c = V
    after_results
    rfl
  rw [e, W3_v14, W3_v18, W3_cst_4]
  rfl

/-- The per-node factor as the one-column array the regions read. -/
theorem W5_v20 : W5 m ρ c (Proc.devRef .tc main_v20) = dcolOf (Cert.ReferenceIdeal.Read.val_main_v19 (F := Ideal) (m ((c : Thread nD τ).loc main_arg1)) (m ((c : Thread nD τ).loc main_arg2))) := by
  have e : W5 m ρ c (Proc.devRef .tc main_v20) = dcolOf (W4 m ρ c (Proc.devRef .tc main_v19)) := by
    show after hostOps0_4 (W4 m ρ c) _ = _
    generalize W4 m ρ c = V
    after_results
    rfl
  rw [e, W4_v19]

/-! ## What the later stretches leave alone -/

theorem W5_v4 : W5 m ρ c (Proc.devRef .tc main_v4) = Cert.ReferenceIdeal.Read.val_main_v4 (F := Ideal) (m ((c : Thread nD τ).loc main_arg1)) := by
  have e : W5 m ρ c (Proc.devRef .tc main_v4) = W1 m ρ c (Proc.devRef .tc main_v4) := by
    dsimp only [W5, W4, W3, W2]
    generalize W1 m ρ c = V
    after_results
  rw [e, W1_v4]

theorem W5_v7 : W5 m ρ c (Proc.devRef .tc main_v7) = Cert.ReferenceIdeal.Read.val_main_v7 (F := Ideal) (m ((c : Thread nD τ).loc main_arg1)) := by
  have e : W5 m ρ c (Proc.devRef .tc main_v7) = W1 m ρ c (Proc.devRef .tc main_v7) := by
    dsimp only [W5, W4, W3, W2]
    generalize W1 m ρ c = V
    after_results
  rw [e, W1_v7]

theorem W5_v9 : W5 m ρ c (Proc.devRef .tc main_v9) = Cert.ReferenceIdeal.Read.val_main_v9 (F := Ideal) (m ((c : Thread nD τ).loc main_arg2)) := by
  have e : W5 m ρ c (Proc.devRef .tc main_v9) = W1 m ρ c (Proc.devRef .tc main_v9) := by
    dsimp only [W5, W4, W3, W2]
    generalize W1 m ρ c = V
    after_results
  rw [e, W1_v9]

theorem W5_arg0 : W5 m ρ c (Proc.devRef .tc main_arg0) = (m ((c : Thread nD τ).loc main_arg0)) := by
  dsimp only [W5, W4, W3, W2, W1, W0]
  after_results

theorem W5_arg3 : W5 m ρ c (Proc.devRef .tc main_arg3) = (m ((c : Thread nD τ).loc main_arg3)) := by
  dsimp only [W5, W4, W3, W2, W1, W0]
  after_results

theorem W5_arg4 : W5 m ρ c (Proc.devRef .tc main_arg4) = (m ((c : Thread nD τ).loc main_arg4)) := by
  dsimp only [W5, W4, W3, W2, W1, W0]
  after_results

theorem W5_arg5 : W5 m ρ c (Proc.devRef .tc main_arg5) = (m ((c : Thread nD τ).loc main_arg5)) := by
  dsimp only [W5, W4, W3, W2, W1, W0]
  after_results

theorem W5_arg6 : W5 m ρ c (Proc.devRef .tc main_arg6) = (m ((c : Thread nD τ).loc main_arg6)) := by
  dsimp only [W5, W4, W3, W2, W1, W0]
  after_results

theorem W5_arg7 : W5 m ρ c (Proc.devRef .tc main_arg7) = (m ((c : Thread nD τ).loc main_arg7)) := by
  dsimp only [W5, W4, W3, W2, W1, W0]
  after_results

theorem W5_arg8 : W5 m ρ c (Proc.devRef .tc main_arg8) = (m ((c : Thread nD τ).loc main_arg8)) := by
  dsimp only [W5, W4, W3, W2, W1, W0]
  after_results

theorem W5_arg9 : W5 m ρ c (Proc.devRef .tc main_arg9) = (m ((c : Thread nD τ).loc main_arg9)) := by
  dsimp only [W5, W4, W3, W2, W1, W0]
  after_results

end Cert.KernelIdeal.KValue

end
-- ==== Proof.LibPlainProduct.lean ====
/-
  A matrix unit's product with the plain dimension numbers, read on the extended reals — general in the
  extents M, K, N.

  The plain dimension numbers contract the second axis of an [M, K] left operand against the first axis of a
  [K, N] right operand, with no batch axis. At an output index (r, j) and contraction coordinate k the two
  operand indices are then (r, k) and (k, j), so the product accumulated into the zero array is, entry by entry,
  the sum over k of l (r, k) · w (k, j): the array `rowsTimes l w`. The same holds of any record of dimension
  numbers equal to the plain one, whatever its own well-formedness proof.
-/
import proofs.«125872_j46729244180997_2_alg».proof.Proof.LibRowsTimes

noncomputable section

namespace Cert.Dense

open Idealize.ShloMosaic Idealize.ShloMosaic.ValueIdx

variable {M K N : Nat}

/-- The left operand's row coordinate is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The left operand's index at output index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0 : Fin M) k := by
  have hk := contrEquiv1_symm_val (DotDims.plain M K N) K rfl rfl k
  funext a
  apply Fin.ext
  match a with
  | ⟨0, _⟩ => exact plain_lhs_row j _
  | ⟨1, _⟩ => exact (plain_lhs_col j _).trans hk

/-- The right operand's index there is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1 : Fin N) := by
  have hk := contrEquiv1_symm_val (DotDims.plain M K N) K rfl rfl k
  funext a
  apply Fin.ext
  match a with
  | ⟨0, _⟩ => exact (plain_rhs_row j _).trans hk
  | ⟨1, _⟩ => exact plain_rhs_col j _

/-- The product into the zero array is `rowsTimes`, whatever the two operands' float formats. -/
theorem matmul_plain_zero {φ₁ φ₂ : FTy} (prec : Option ContractPrecision)
    (l : FVec Ideal ⟨2, ![M, K]⟩ φ₁) (w : FVec Ideal ⟨2, ![K, N]⟩ φ₂) :
    matmul (DotDims.plain M K N) prec l w (constant (F := Ideal) ⟨2, ![M, N]⟩ .f32 0x00000000#32) = rowsTimes l w := by
  funext j
  simp only [matmul]
  rw [Ideal.matmul_constant_zero_apply]
  exact contraction_eq (DotDims.plain M K N) rfl rfl l w l w j j
    (fun k => congrArg l (plain_lhsIdx j k)) (fun k => congrArg w (plain_rhsIdx j k))

/-- The same of a record `d` of dimension numbers that is the plain one. -/
theorem matmul_zero_of_plain {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (w : FVec Ideal ⟨2, ![K, N]⟩ φ₂) :
    matmul d prec l w (constant (F := Ideal) ⟨2, ![M, N]⟩ .f32 0x00000000#32) = rowsTimes l w := by
  subst hd
  exact matmul_plain_zero prec l w

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.RegionProduct.lean ====
/-
  What regions 0 and 2 leave in their output arrays: node features times a weight matrix, each node's row then
  scaled by that node's entry of a one-column array.

  Both regions run over ten grid points. At point t the node-feature window (5 columns in region 0, 64 in region
  2), the column window and the output window are each at block t of 5000 rows of a 50000-row array (block index
  (t, 0)), and the weights' window is its whole array ([5, 64], resp. [64, 64]). So entry (p, k) of a block at
  point t is entry (5000 t + p, k) of its array — a block's coordinate is always block index × block extent + the
  coordinate inside the block. The body loads the three input blocks whole, forms the block · weights product into
  a zero accumulator (the change of float format on the way in is the identity on the extended reals), multiplies
  it entry by entry with the [5000, 1] column repeated along the rows, and stores the result whole. Entry (p, q) of
  what is stored is therefore
      (∑ k, X (5000 t + p, k) · W (k, q)) · d (5000 t + p, 0),
  because the rows of a block's product are the corresponding rows of the whole product; this is
  `Cert.Gcn.mmScale` of the three arrays at (5000 t + p, q). Row r of the output lies in the block of point
  r / 5000, so the ten blocks cover the array and it ends holding that function everywhere.
-/
import proofs.«125872_j46729244180997_2_alg».proof.Proof.Gen.KernelIdeal.Frame
import proofs.«125872_j46729244180997_2_alg».proof.Proof.Spec
import proofs.«125872_j46729244180997_2_alg».proof.Proof.LibPlainProduct
import proofs.«125872_j46729244180997_2_alg».proof.Proof.LibColumnLayout

import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx Idealize.ShloMosaic.ColumnLayout
open Idealize.ShloMosaic.Pipeline (Dat)

variable (V : (c : Dev nD) → (b : Ref sig .tc) → Buf (Elt Ideal) ((c : Thread nD τ).loc b))

/-- The offsets of a whole-block load or store are zero on both axes. -/
theorem productOffsets_zero : (![0, 0] : Fin 2 → Nat) = fun _ => 0 := funext fun a => by fin_cases a <;> rfl

/-! ## Region 0 -/

/-- The body's stored value at (p, q): row p of the first block times column q of the weights, times the column
    block's entry in row p. The identity casts drop out, the product into the zero accumulator with the plain
    dimension numbers is the sum over the contracted axis of extent 5, narrowing the operands' float format changes
    nothing on the extended reals, and the column repeated along the rows reads its one column. -/
theorem productPayload0_apply (x0 : Vec Ideal S5000x5 .f32) (x1 : Vec Ideal S5x64 .f32) (x2 : Vec Ideal S5000x1 .f32)
    (p : Fin 5000) (q : Fin 64) :
    k0_pay1 (F := Ideal) x0 x1 x2 (ix2 p q) = Cert.Dense.rowsTimes x0 x1 (ix2 p q) * x2 (ix2 p (0 : Fin 1)) := by
  unfold k0_pay1
  simp only [shapeCast_self]
  refine (mulf_apply _ _ _).trans ?_
  rw [broadcastTo_a1_ab_apply]
  rw [Cert.Dense.matmul_zero_of_plain dot_S5000x5_S5x64_S5000x64_1_0_0_1_n_n rfl]
  rfl

/-- The printed index maps over the ten grid points: the node-feature, column and output windows are at block
    (t, 0) at point t, the weights' window at block (0, 0). -/
theorem productBlockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `y` of the node-feature block at point t is the array's entry in row 5000 t + (row of `y`), same column:
    a block's coordinate is block index × block extent + the coordinate inside the block. -/
theorem productRead0_rows (c : Dev nD) (t : Fin cfg0.N) (y : S5000x5.Idx) (i : S50000x5.Idx)
    (h0 : (i 0).val = t.val * 5000 + (y 0).val) (h1 : (i 1).val = (y 1).val) :
    (iblk0 V c 0 t : Vec Ideal S5000x5 .f32) y = (V c (Pipeline.arrRef spec0 0) : S50000x5.Idx → EReal) i := by
  obtain ⟨e0, e1, -⟩ := productBlockIndex0 t
  unfold iblk0
  rw [View.read_apply]
  show V c (Pipeline.arrRef spec0 0) (((cfg0.win 0).blk t).view.emb y) = V c (Pipeline.arrRef spec0 0) i
  refine congrArg _ ?_
  funext a; apply Fin.ext
  match a with
  | ⟨0, _⟩ => show win0_0.index t (0 : Fin 2) * 5000 + 1 * (y 0).val = (i 0).val; omega
  | ⟨1, _⟩ => show win0_0.index t (1 : Fin 2) * 5 + 1 * (y 1).val = (i 1).val; omega

/-- The weights' block at any point is the whole weights array. -/
theorem productRead0_weights (c : Dev nD) (t : Fin cfg0.N) (y i : S5x64.Idx)
    (h0 : (i 0).val = (y 0).val) (h1 : (i 1).val = (y 1).val) :
    (iblk0 V c 1 t : Vec Ideal S5x64 .f32) y = (V c (Pipeline.arrRef spec0 1) : S5x64.Idx → EReal) i := by
  obtain ⟨-, -, e0, e1, -⟩ := productBlockIndex0 t
  unfold iblk0
  rw [View.read_apply]
  show V c (Pipeline.arrRef spec0 1) (((cfg0.win 1).blk t).view.emb y) = V c (Pipeline.arrRef spec0 1) i
  refine congrArg _ ?_
  funext a; apply Fin.ext
  match a with
  | ⟨0, _⟩ => show win0_1.index t (0 : Fin 2) * 5 + 1 * (y 0).val = (i 0).val; omega
  | ⟨1, _⟩ => show win0_1.index t (1 : Fin 2) * 64 + 1 * (y 1).val = (i 1).val; omega

/-- Entry `y` of the column block at point t is the one-column array's entry in row 5000 t + (row of `y`). -/
theorem productRead0_column (c : Dev nD) (t : Fin cfg0.N) (y : S5000x1.Idx) (i : S50000x1.Idx)
    (h0 : (i 0).val = t.val * 5000 + (y 0).val) (h1 : (i 1).val = (y 1).val) :
    (iblk0 V c 2 t : Vec Ideal S5000x1 .f32) y = (V c (Pipeline.arrRef spec0 2) : S50000x1.Idx → EReal) i := by
  obtain ⟨-, -, -, -, e0, e1, -⟩ := productBlockIndex0 t
  unfold iblk0
  rw [View.read_apply]
  show V c (Pipeline.arrRef spec0 2) (((cfg0.win 2).blk t).view.emb y) = V c (Pipeline.arrRef spec0 2) i
  refine congrArg _ ?_
  funext a; apply Fin.ext
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-- What point t writes back is block t of `mmScale` of the three input arrays: entry (p, q) of the block is the
    output's entry (5000 t + p, q); the rows of the block's product are rows 5000 t + p of the whole product
    (products of rows are rows of the product), and the column block is read in the same row of its array. -/
theorem productWritten0 (c : Dev nD) (t : Fin cfg0.N) :
    (dat0 (F := Ideal) V c).flushed 3 t = ((cfg0.win 3).blk t).view.read (Elt Ideal)
      (Cert.Gcn.mmScale (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero productOffsets_zero]
  simp only [View.ld_unit_zero (S := S5000x5) productOffsets_zero, View.ld_unit_zero (S := S5x64) productOffsets_zero,
    View.ld_unit_zero (S := S5000x1) productOffsets_zero]
  obtain ⟨-, -, -, -, -, -, e0, e1⟩ := productBlockIndex0 t
  funext j
  obtain ⟨p, q, rfl⟩ : ∃ (p : Fin 5000) (q : Fin 64), j = ix2 p q := ⟨j 0, j 1, eq_ix2 j⟩
  rw [View.read_apply]
  show k0_pay1 (F := Ideal) (iblk0 V c 0 t) (iblk0 V c 1 t) (iblk0 V c 2 t) (ix2 p q) = _
  refine (productPayload0_apply (iblk0 V c 0 t) (iblk0 V c 1 t) (iblk0 V c 2 t) p q).trans ?_
  have hi0 : ((((cfg0.win 3).blk t).view.emb (ix2 p q) : S50000x64.Idx) 0).val = t.val * 5000 + p.val := by
    show win0_3.index t (0 : Fin 2) * 5000 + 1 * p.val = t.val * 5000 + p.val; omega
  have hi1 : ((((cfg0.win 3).blk t).view.emb (ix2 p q) : S50000x64.Idx) 1).val = q.val := by
    show win0_3.index t (1 : Fin 2) * 64 + 1 * q.val = q.val; omega
  unfold Cert.Gcn.mmScale
  refine congrArg₂ (· * ·) ?_ ?_
  · exact Cert.Dense.rowsTimes_of_rows _ _ _ _ _ _
      (fun k => productRead0_rows V c t _ _ hi0 rfl) (fun k => productRead0_weights V c t _ _ rfl hi1)
  · exact productRead0_column V c t _ _ hi0 rfl

/-- An index of the output array is in point t's block iff each coordinate is in the block's range on its axis. -/
theorem productBlock0_mem (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v21).slice (win0_3.rect t)).set ↔ _
  rw [View.set_slice_whole, Rect.mem_set_unit]
  exact Iff.rfl

/-- After the region the output array is `mmScale` of the three input arrays as the region found them: row r is
    in the block of point r / 5000, and the ten blocks of 5000 rows cover the 50000 rows. -/
theorem final0 (c : Dev nD) : (dat0 (F := Ideal) V c).arrAt 3 cfg0.N
    = Cert.Gcn.mmScale (V c (Pipeline.arrRef spec0 0)) (V c (Pipeline.arrRef spec0 1)) (V c (Pipeline.arrRef spec0 2)) :=
  (dat0 V c).arrAt_eq_of_cover 3 _ (fun t _ => productWritten0 V c t) fun i => by
    have h0 : (i 0).val < 50000 := (i 0).isLt
    have h1 : (i 1).val < 64 := (i 1).isLt
    have hN : cfg0.N = 10 := N_0
    refine ⟨⟨(i 0).val / 5000, by rw [hN]; omega⟩, flush0_3 _, ?_⟩
    obtain ⟨-, -, -, -, -, -, e0, e1⟩ := productBlockIndex0 ⟨(i 0).val / 5000, by rw [hN]; omega⟩
    rw [productBlock0_mem]
    intro a
    match a with
    | ⟨0, _⟩ =>
      show win0_3.index _ (0 : Fin 2) * 5000 ≤ (i 0).val ∧ (i 0).val < win0_3.index _ (0 : Fin 2) * 5000 + 5000
      rw [e0]; show (i 0).val / 5000 * 5000 ≤ (i 0).val ∧ (i 0).val < (i 0).val / 5000 * 5000 + 5000; omega
    | ⟨1, _⟩ =>
      show win0_3.index _ (1 : Fin 2) * 64 ≤ (i 1).val ∧ (i 1).val < win0_3.index _ (1 : Fin 2) * 64 + 64
      rw [e1]; omega

/-! ## Region 2 -/

/-- The body's stored value at (p, q): row p of the first block times column q of the weights, times the column
    block's entry in row p. The identity casts drop out, the product into the zero accumulator with the plain
    dimension numbers is the sum over the contracted axis of extent 64, narrowing the operands' float format changes
    nothing on the extended reals, and the column repeated along the rows reads its one column. -/
theorem productPayload2_apply (x0 : Vec Ideal S5000x64 .f32) (x1 : Vec Ideal S64x64 .f32) (x2 : Vec Ideal S5000x1 .f32)
    (p : Fin 5000) (q : Fin 64) :
    k2_pay1 (F := Ideal) x0 x1 x2 (ix2 p q) = Cert.Dense.rowsTimes x0 x1 (ix2 p q) * x2 (ix2 p (0 : Fin 1)) := by
  unfold k2_pay1
  simp only [shapeCast_self]
  refine (mulf_apply _ _ _).trans ?_
  rw [broadcastTo_a1_ab_apply]
  rw [Cert.Dense.matmul_zero_of_plain dot_S5000x64_S64x64_S5000x64_1_0_0_1_n_n rfl]
  rfl

/-- The printed index maps over the ten grid points: the node-feature, column and output windows are at block
    (t, 0) at point t, the weights' window at block (0, 0). -/
theorem productBlockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry `y` of the node-feature block at point t is the array's entry in row 5000 t + (row of `y`), same column:
    a block's coordinate is block index × block extent + the coordinate inside the block. -/
theorem productRead2_rows (c : Dev nD) (t : Fin cfg2.N) (y : S5000x64.Idx) (i : S50000x64.Idx)
    (h0 : (i 0).val = t.val * 5000 + (y 0).val) (h1 : (i 1).val = (y 1).val) :
    (iblk2 V c 0 t : Vec Ideal S5000x64 .f32) y = (V c (Pipeline.arrRef spec2 0) : S50000x64.Idx → EReal) i := by
  obtain ⟨e0, e1, -⟩ := productBlockIndex2 t
  unfold iblk2
  rw [View.read_apply]
  show V c (Pipeline.arrRef spec2 0) (((cfg2.win 0).blk t).view.emb y) = V c (Pipeline.arrRef spec2 0) i
  refine congrArg _ ?_
  funext a; apply Fin.ext
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- The weights' block at any point is the whole weights array. -/
theorem productRead2_weights (c : Dev nD) (t : Fin cfg2.N) (y i : S64x64.Idx)
    (h0 : (i 0).val = (y 0).val) (h1 : (i 1).val = (y 1).val) :
    (iblk2 V c 1 t : Vec Ideal S64x64 .f32) y = (V c (Pipeline.arrRef spec2 1) : S64x64.Idx → EReal) i := by
  obtain ⟨-, -, e0, e1, -⟩ := productBlockIndex2 t
  unfold iblk2
  rw [View.read_apply]
  show V c (Pipeline.arrRef spec2 1) (((cfg2.win 1).blk t).view.emb y) = V c (Pipeline.arrRef spec2 1) i
  refine congrArg _ ?_
  funext a; apply Fin.ext
  match a with
  | ⟨0, _⟩ => show win2_1.index t (0 : Fin 2) * 64 + 1 * (y 0).val = (i 0).val; omega
  | ⟨1, _⟩ => show win2_1.index t (1 : Fin 2) * 64 + 1 * (y 1).val = (i 1).val; omega

/-- Entry `y` of the column block at point t is the one-column array's entry in row 5000 t + (row of `y`). -/
theorem productRead2_column (c : Dev nD) (t : Fin cfg2.N) (y : S5000x1.Idx) (i : S50000x1.Idx)
    (h0 : (i 0).val = t.val * 5000 + (y 0).val) (h1 : (i 1).val = (y 1).val) :
    (iblk2 V c 2 t : Vec Ideal S5000x1 .f32) y = (V c (Pipeline.arrRef spec2 2) : S50000x1.Idx → EReal) i := by
  obtain ⟨-, -, -, -, e0, e1, -⟩ := productBlockIndex2 t
  unfold iblk2
  rw [View.read_apply]
  show V c (Pipeline.arrRef spec2 2) (((cfg2.win 2).blk t).view.emb y) = V c (Pipeline.arrRef spec2 2) i
  refine congrArg _ ?_
  funext a; apply Fin.ext
  match a with
  | ⟨0, _⟩ => show win2_2.index t (0 : Fin 2) * 5000 + 1 * (y 0).val = (i 0).val; omega
  | ⟨1, _⟩ => show win2_2.index t (1 : Fin 2) * 1 + 1 * (y 1).val = (i 1).val; omega

/-- What point t writes back is block t of `mmScale` of the three input arrays: entry (p, q) of the block is the
    output's entry (5000 t + p, q); the rows of the block's product are rows 5000 t + p of the whole product
    (products of rows are rows of the product), and the column block is read in the same row of its array. -/
theorem productWritten2 (c : Dev nD) (t : Fin cfg2.N) :
    (dat2 (F := Ideal) V c).flushed 3 t = ((cfg2.win 3).blk t).view.read (Elt Ideal)
      (Cert.Gcn.mmScale (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero productOffsets_zero]
  simp only [View.ld_unit_zero (S := S5000x64) productOffsets_zero, View.ld_unit_zero (S := S64x64) productOffsets_zero,
    View.ld_unit_zero (S := S5000x1) productOffsets_zero]
  obtain ⟨-, -, -, -, -, -, e0, e1⟩ := productBlockIndex2 t
  funext j
  obtain ⟨p, q, rfl⟩ : ∃ (p : Fin 5000) (q : Fin 64), j = ix2 p q := ⟨j 0, j 1, eq_ix2 j⟩
  rw [View.read_apply]
  show k2_pay1 (F := Ideal) (iblk2 V c 0 t) (iblk2 V c 1 t) (iblk2 V c 2 t) (ix2 p q) = _
  refine (productPayload2_apply (iblk2 V c 0 t) (iblk2 V c 1 t) (iblk2 V c 2 t) p q).trans ?_
  have hi0 : ((((cfg2.win 3).blk t).view.emb (ix2 p q) : S50000x64.Idx) 0).val = t.val * 5000 + p.val := by
    show win2_3.index t (0 : Fin 2) * 5000 + 1 * p.val = t.val * 5000 + p.val; omega
  have hi1 : ((((cfg2.win 3).blk t).view.emb (ix2 p q) : S50000x64.Idx) 1).val = q.val := by
    show win2_3.index t (1 : Fin 2) * 64 + 1 * q.val = q.val; omega
  unfold Cert.Gcn.mmScale
  refine congrArg₂ (· * ·) ?_ ?_
  · exact Cert.Dense.rowsTimes_of_rows _ _ _ _ _ _
      (fun k => productRead2_rows V c t _ _ hi0 rfl) (fun k => productRead2_weights V c t _ _ rfl hi1)
  · exact productRead2_column V c t _ _ hi0 rfl

/-- An index of the output array is in point t's block iff each coordinate is in the block's range on its axis. -/
theorem productBlock2_mem (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v37).slice (win2_3.rect t)).set ↔ _
  rw [View.set_slice_whole, Rect.mem_set_unit]
  exact Iff.rfl

/-- After the region the output array is `mmScale` of the three input arrays as the region found them: row r is
    in the block of point r / 5000, and the ten blocks of 5000 rows cover the 50000 rows. -/
theorem final2 (c : Dev nD) : (dat2 (F := Ideal) V c).arrAt 3 cfg2.N
    = Cert.Gcn.mmScale (V c (Pipeline.arrRef spec2 0)) (V c (Pipeline.arrRef spec2 1)) (V c (Pipeline.arrRef spec2 2)) :=
  (dat2 V c).arrAt_eq_of_cover 3 _ (fun t _ => productWritten2 V c t) fun i => by
    have h0 : (i 0).val < 50000 := (i 0).isLt
    have h1 : (i 1).val < 64 := (i 1).isLt
    have hN : cfg2.N = 10 := N_2
    refine ⟨⟨(i 0).val / 5000, by rw [hN]; omega⟩, flush2_3 _, ?_⟩
    obtain ⟨-, -, -, -, -, -, e0, e1⟩ := productBlockIndex2 ⟨(i 0).val / 5000, by rw [hN]; omega⟩
    rw [productBlock2_mem]
    intro a
    match a with
    | ⟨0, _⟩ =>
      show win2_3.index _ (0 : Fin 2) * 5000 ≤ (i 0).val ∧ (i 0).val < win2_3.index _ (0 : Fin 2) * 5000 + 5000
      rw [e0]; show (i 0).val / 5000 * 5000 ≤ (i 0).val ∧ (i 0).val < (i 0).val / 5000 * 5000 + 5000; omega
    | ⟨1, _⟩ =>
      show win2_3.index _ (1 : Fin 2) * 64 ≤ (i 1).val ∧ (i 1).val < win2_3.index _ (1 : Fin 2) * 64 + 64
      rw [e1]; omega

end Cert.KernelIdeal.RegionValue

end
-- ==== Proof.RegionScale.lean ====
/-
  What regions 1 and 3 leave in their output arrays: each node's row scaled by that node's entry of a one-column
  array, plus a bias row, then the maximum with zero.

  Both regions run over ten grid points. At point t the node-feature window, the column window and the output
  window are each at block t of 5000 rows of a 50000-row array (block index (t, 0)), and the bias row's window is
  its whole [1, 64] array. So entry (p, q) of a block at point t is entry (5000 t + p, q) of its array — a block's
  coordinate is always block index × block extent + the coordinate inside the block. The body loads the three
  input blocks whole, multiplies the [5000, 64] block entry by entry with the [5000, 1] column repeated along the
  rows, adds the [1, 64] bias row repeated down the rows, takes the maximum with zero and stores the result whole.
  Entry (p, q) of what is stored is therefore
      max (A (5000 t + p, q) · d (5000 t + p, 0) + b (0, q)) 0,
  which is `Cert.Gcn.postScale` of the three arrays at (5000 t + p, q). Row r of the output lies in the block of
  point r / 5000, so the ten blocks cover the array and it ends holding that function everywhere.
-/
import proofs.«125872_j46729244180997_2_alg».proof.Proof.Gen.KernelIdeal.Frame
import proofs.«125872_j46729244180997_2_alg».proof.Proof.Spec
import proofs.«125872_j46729244180997_2_alg».proof.Proof.LibPlainProduct
import proofs.«125872_j46729244180997_2_alg».proof.Proof.LibColumnLayout

import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx Idealize.ShloMosaic.ColumnLayout
open Idealize.ShloMosaic.Pipeline (Dat)

variable (V : (c : Dev nD) → (b : Ref sig .tc) → Buf (Elt Ideal) ((c : Thread nD τ).loc b))

/-- The offsets of a whole-block load or store are zero on both axes. -/
theorem scaleOffsets_zero : (![0, 0] : Fin 2 → Nat) = fun _ => 0 := funext fun a => by fin_cases a <;> rfl

/-! ## Region 1 -/

/-- The body's stored value at (p, q): the first block's entry times the column block's entry in row p, plus
    the bias row's entry at q, and the maximum of that with zero. The identity casts drop out; the column repeated
    along the rows reads its one column, the bias row repeated down the rows reads its one row, and the zero the
    maximum is taken with is the f32 word of zero spread over the block. -/
theorem scalePayload1_apply (x0 : Vec Ideal S5000x64 .f32) (x1 : Vec Ideal S5000x1 .f32) (x2 : Vec Ideal S1x64 .f32)
    (p : Fin 5000) (q : Fin 64) :
    k1_pay1 (F := Ideal) x0 x1 x2 (ix2 p q)
      = max (x0 (ix2 p q) * x1 (ix2 p (0 : Fin 1)) + x2 (ix2 (0 : Fin 1) q)) Cert.Gcn.zeroW := by
  unfold k1_pay1
  simp only [shapeCast_self]
  refine (maximumf_apply _ _ _).trans ?_
  refine congrArg₂ max ?_ rfl
  refine (addf_apply _ _ _).trans ?_
  refine congrArg₂ (· + ·) ?_ (broadcastTo_1b_ab_apply _ _ p q)
  refine (mulf_apply _ _ _).trans ?_
  exact congrArg₂ (· * ·) rfl (broadcastTo_a1_ab_apply _ _ p q)

/-- The printed index maps over the ten grid points: the node-feature, column and output windows are at block
    (t, 0) at point t, the bias row's window at block (0, 0). -/
theorem scaleBlockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `y` of the node-feature block at point t is the array's entry in row 5000 t + (row of `y`), same column:
    a block's coordinate is block index × block extent + the coordinate inside the block. -/
theorem scaleRead1_rows (c : Dev nD) (t : Fin cfg1.N) (y : S5000x64.Idx) (i : S50000x64.Idx)
    (h0 : (i 0).val = t.val * 5000 + (y 0).val) (h1 : (i 1).val = (y 1).val) :
    (iblk1 V c 0 t : Vec Ideal S5000x64 .f32) y = (V c (Pipeline.arrRef spec1 0) : S50000x64.Idx → EReal) i := by
  obtain ⟨e0, e1, -⟩ := scaleBlockIndex1 t
  unfold iblk1
  rw [View.read_apply]
  show V c (Pipeline.arrRef spec1 0) (((cfg1.win 0).blk t).view.emb y) = V c (Pipeline.arrRef spec1 0) i
  refine congrArg _ ?_
  funext a; apply Fin.ext
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- Entry `y` of the column block at point t is the one-column array's entry in row 5000 t + (row of `y`). -/
theorem scaleRead1_column (c : Dev nD) (t : Fin cfg1.N) (y : S5000x1.Idx) (i : S50000x1.Idx)
    (h0 : (i 0).val = t.val * 5000 + (y 0).val) (h1 : (i 1).val = (y 1).val) :
    (iblk1 V c 1 t : Vec Ideal S5000x1 .f32) y = (V c (Pipeline.arrRef spec1 1) : S50000x1.Idx → EReal) i := by
  obtain ⟨-, -, e0, e1, -⟩ := scaleBlockIndex1 t
  unfold iblk1
  rw [View.read_apply]
  show V c (Pipeline.arrRef spec1 1) (((cfg1.win 1).blk t).view.emb y) = V c (Pipeline.arrRef spec1 1) i
  refine congrArg _ ?_
  funext a; apply Fin.ext
  match a with
  | ⟨0, _⟩ => show win1_1.index t (0 : Fin 2) * 5000 + 1 * (y 0).val = (i 0).val; omega
  | ⟨1, _⟩ => show win1_1.index t (1 : Fin 2) * 1 + 1 * (y 1).val = (i 1).val; omega

/-- The bias-row block at any point is the whole bias-row array. -/
theorem scaleRead1_bias (c : Dev nD) (t : Fin cfg1.N) (y i : S1x64.Idx)
    (h0 : (i 0).val = (y 0).val) (h1 : (i 1).val = (y 1).val) :
    (iblk1 V c 2 t : Vec Ideal S1x64 .f32) y = (V c (Pipeline.arrRef spec1 2) : S1x64.Idx → EReal) i := by
  obtain ⟨-, -, -, -, e0, e1, -⟩ := scaleBlockIndex1 t
  unfold iblk1
  rw [View.read_apply]
  show V c (Pipeline.arrRef spec1 2) (((cfg1.win 2).blk t).view.emb y) = V c (Pipeline.arrRef spec1 2) i
  refine congrArg _ ?_
  funext a; apply Fin.ext
  match a with
  | ⟨0, _⟩ => show win1_2.index t (0 : Fin 2) * 1 + 1 * (y 0).val = (i 0).val; omega
  | ⟨1, _⟩ => show win1_2.index t (1 : Fin 2) * 64 + 1 * (y 1).val = (i 1).val; omega

/-- What point t writes back is block t of `postScale` of the three input arrays: entry (p, q) of the block is
    the output's entry (5000 t + p, q), and each input block is read in the same row (the bias row in the same
    column) of its array. -/
theorem scaleWritten1 (c : Dev nD) (t : Fin cfg1.N) :
    (dat1 (F := Ideal) V c).flushed 3 t = ((cfg1.win 3).blk t).view.read (Elt Ideal)
      (Cert.Gcn.postScale (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero scaleOffsets_zero]
  simp only [View.ld_unit_zero (S := S5000x64) scaleOffsets_zero, View.ld_unit_zero (S := S5000x1) scaleOffsets_zero,
    View.ld_unit_zero (S := S1x64) scaleOffsets_zero]
  obtain ⟨-, -, -, -, -, -, e0, e1⟩ := scaleBlockIndex1 t
  funext j
  obtain ⟨p, q, rfl⟩ : ∃ (p : Fin 5000) (q : Fin 64), j = ix2 p q := ⟨j 0, j 1, eq_ix2 j⟩
  rw [View.read_apply]
  show k1_pay1 (F := Ideal) (iblk1 V c 0 t) (iblk1 V c 1 t) (iblk1 V c 2 t) (ix2 p q) = _
  refine (scalePayload1_apply (iblk1 V c 0 t) (iblk1 V c 1 t) (iblk1 V c 2 t) p q).trans ?_
  have hi0 : ((((cfg1.win 3).blk t).view.emb (ix2 p q) : S50000x64.Idx) 0).val = t.val * 5000 + p.val := by
    show win1_3.index t (0 : Fin 2) * 5000 + 1 * p.val = t.val * 5000 + p.val; omega
  have hi1 : ((((cfg1.win 3).blk t).view.emb (ix2 p q) : S50000x64.Idx) 1).val = q.val := by
    show win1_3.index t (1 : Fin 2) * 64 + 1 * q.val = q.val; omega
  unfold Cert.Gcn.postScale
  refine congrArg₂ max (congrArg₂ (· + ·) (congrArg₂ (· * ·) ?_ ?_) ?_) rfl
  · exact scaleRead1_rows V c t _ _ hi0 hi1
  · exact scaleRead1_column V c t _ _ hi0 rfl
  · exact scaleRead1_bias V c t _ _ rfl hi1

/-- An index of the output array is in point t's block iff each coordinate is in the block's range on its axis. -/
theorem scaleBlock1_mem (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v36).slice (win1_3.rect t)).set ↔ _
  rw [View.set_slice_whole, Rect.mem_set_unit]
  exact Iff.rfl

/-- After the region the output array is `postScale` of the three input arrays as the region found them: row r
    is in the block of point r / 5000, and the ten blocks of 5000 rows cover the 50000 rows. -/
theorem final1 (c : Dev nD) : (dat1 (F := Ideal) V c).arrAt 3 cfg1.N
    = Cert.Gcn.postScale (V c (Pipeline.arrRef spec1 0)) (V c (Pipeline.arrRef spec1 1)) (V c (Pipeline.arrRef spec1 2)) :=
  (dat1 V c).arrAt_eq_of_cover 3 _ (fun t _ => scaleWritten1 V c t) fun i => by
    have h0 : (i 0).val < 50000 := (i 0).isLt
    have h1 : (i 1).val < 64 := (i 1).isLt
    have hN : cfg1.N = 10 := N_1
    refine ⟨⟨(i 0).val / 5000, by rw [hN]; omega⟩, flush1_3 _, ?_⟩
    obtain ⟨-, -, -, -, -, -, e0, e1⟩ := scaleBlockIndex1 ⟨(i 0).val / 5000, by rw [hN]; omega⟩
    rw [scaleBlock1_mem]
    intro a
    match a with
    | ⟨0, _⟩ =>
      show win1_3.index _ (0 : Fin 2) * 5000 ≤ (i 0).val ∧ (i 0).val < win1_3.index _ (0 : Fin 2) * 5000 + 5000
      rw [e0]; show (i 0).val / 5000 * 5000 ≤ (i 0).val ∧ (i 0).val < (i 0).val / 5000 * 5000 + 5000; omega
    | ⟨1, _⟩ =>
      show win1_3.index _ (1 : Fin 2) * 64 ≤ (i 1).val ∧ (i 1).val < win1_3.index _ (1 : Fin 2) * 64 + 64
      rw [e1]; omega

/-! ## Region 3 -/

/-- The body's stored value at (p, q): the first block's entry times the column block's entry in row p, plus
    the bias row's entry at q, and the maximum of that with zero. The identity casts drop out; the column repeated
    along the rows reads its one column, the bias row repeated down the rows reads its one row, and the zero the
    maximum is taken with is the f32 word of zero spread over the block. -/
theorem scalePayload3_apply (x0 : Vec Ideal S5000x64 .f32) (x1 : Vec Ideal S5000x1 .f32) (x2 : Vec Ideal S1x64 .f32)
    (p : Fin 5000) (q : Fin 64) :
    k3_pay1 (F := Ideal) x0 x1 x2 (ix2 p q)
      = max (x0 (ix2 p q) * x1 (ix2 p (0 : Fin 1)) + x2 (ix2 (0 : Fin 1) q)) Cert.Gcn.zeroW := by
  unfold k3_pay1
  simp only [shapeCast_self]
  refine (maximumf_apply _ _ _).trans ?_
  refine congrArg₂ max ?_ rfl
  refine (addf_apply _ _ _).trans ?_
  refine congrArg₂ (· + ·) ?_ (broadcastTo_1b_ab_apply _ _ p q)
  refine (mulf_apply _ _ _).trans ?_
  exact congrArg₂ (· * ·) rfl (broadcastTo_a1_ab_apply _ _ p q)

/-- The printed index maps over the ten grid points: the node-feature, column and output windows are at block
    (t, 0) at point t, the bias row's window at block (0, 0). -/
theorem scaleBlockIndex3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry `y` of the node-feature block at point t is the array's entry in row 5000 t + (row of `y`), same column:
    a block's coordinate is block index × block extent + the coordinate inside the block. -/
theorem scaleRead3_rows (c : Dev nD) (t : Fin cfg3.N) (y : S5000x64.Idx) (i : S50000x64.Idx)
    (h0 : (i 0).val = t.val * 5000 + (y 0).val) (h1 : (i 1).val = (y 1).val) :
    (iblk3 V c 0 t : Vec Ideal S5000x64 .f32) y = (V c (Pipeline.arrRef spec3 0) : S50000x64.Idx → EReal) i := by
  obtain ⟨e0, e1, -⟩ := scaleBlockIndex3 t
  unfold iblk3
  rw [View.read_apply]
  show V c (Pipeline.arrRef spec3 0) (((cfg3.win 0).blk t).view.emb y) = V c (Pipeline.arrRef spec3 0) i
  refine congrArg _ ?_
  funext a; apply Fin.ext
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- Entry `y` of the column block at point t is the one-column array's entry in row 5000 t + (row of `y`). -/
theorem scaleRead3_column (c : Dev nD) (t : Fin cfg3.N) (y : S5000x1.Idx) (i : S50000x1.Idx)
    (h0 : (i 0).val = t.val * 5000 + (y 0).val) (h1 : (i 1).val = (y 1).val) :
    (iblk3 V c 1 t : Vec Ideal S5000x1 .f32) y = (V c (Pipeline.arrRef spec3 1) : S50000x1.Idx → EReal) i := by
  obtain ⟨-, -, e0, e1, -⟩ := scaleBlockIndex3 t
  unfold iblk3
  rw [View.read_apply]
  show V c (Pipeline.arrRef spec3 1) (((cfg3.win 1).blk t).view.emb y) = V c (Pipeline.arrRef spec3 1) i
  refine congrArg _ ?_
  funext a; apply Fin.ext
  match a with
  | ⟨0, _⟩ => show win3_1.index t (0 : Fin 2) * 5000 + 1 * (y 0).val = (i 0).val; omega
  | ⟨1, _⟩ => show win3_1.index t (1 : Fin 2) * 1 + 1 * (y 1).val = (i 1).val; omega

/-- The bias-row block at any point is the whole bias-row array. -/
theorem scaleRead3_bias (c : Dev nD) (t : Fin cfg3.N) (y i : S1x64.Idx)
    (h0 : (i 0).val = (y 0).val) (h1 : (i 1).val = (y 1).val) :
    (iblk3 V c 2 t : Vec Ideal S1x64 .f32) y = (V c (Pipeline.arrRef spec3 2) : S1x64.Idx → EReal) i := by
  obtain ⟨-, -, -, -, e0, e1, -⟩ := scaleBlockIndex3 t
  unfold iblk3
  rw [View.read_apply]
  show V c (Pipeline.arrRef spec3 2) (((cfg3.win 2).blk t).view.emb y) = V c (Pipeline.arrRef spec3 2) i
  refine congrArg _ ?_
  funext a; apply Fin.ext
  match a with
  | ⟨0, _⟩ => show win3_2.index t (0 : Fin 2) * 1 + 1 * (y 0).val = (i 0).val; omega
  | ⟨1, _⟩ => show win3_2.index t (1 : Fin 2) * 64 + 1 * (y 1).val = (i 1).val; omega

/-- What point t writes back is block t of `postScale` of the three input arrays: entry (p, q) of the block is
    the output's entry (5000 t + p, q), and each input block is read in the same row (the bias row in the same
    column) of its array. -/
theorem scaleWritten3 (c : Dev nD) (t : Fin cfg3.N) :
    (dat3 (F := Ideal) V c).flushed 3 t = ((cfg3.win 3).blk t).view.read (Elt Ideal)
      (Cert.Gcn.postScale (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero scaleOffsets_zero]
  simp only [View.ld_unit_zero (S := S5000x64) scaleOffsets_zero, View.ld_unit_zero (S := S5000x1) scaleOffsets_zero,
    View.ld_unit_zero (S := S1x64) scaleOffsets_zero]
  obtain ⟨-, -, -, -, -, -, e0, e1⟩ := scaleBlockIndex3 t
  funext j
  obtain ⟨p, q, rfl⟩ : ∃ (p : Fin 5000) (q : Fin 64), j = ix2 p q := ⟨j 0, j 1, eq_ix2 j⟩
  rw [View.read_apply]
  show k3_pay1 (F := Ideal) (iblk3 V c 0 t) (iblk3 V c 1 t) (iblk3 V c 2 t) (ix2 p q) = _
  refine (scalePayload3_apply (iblk3 V c 0 t) (iblk3 V c 1 t) (iblk3 V c 2 t) p q).trans ?_
  have hi0 : ((((cfg3.win 3).blk t).view.emb (ix2 p q) : S50000x64.Idx) 0).val = t.val * 5000 + p.val := by
    show win3_3.index t (0 : Fin 2) * 5000 + 1 * p.val = t.val * 5000 + p.val; omega
  have hi1 : ((((cfg3.win 3).blk t).view.emb (ix2 p q) : S50000x64.Idx) 1).val = q.val := by
    show win3_3.index t (1 : Fin 2) * 64 + 1 * q.val = q.val; omega
  unfold Cert.Gcn.postScale
  refine congrArg₂ max (congrArg₂ (· + ·) (congrArg₂ (· * ·) ?_ ?_) ?_) rfl
  · exact scaleRead3_rows V c t _ _ hi0 hi1
  · exact scaleRead3_column V c t _ _ hi0 rfl
  · exact scaleRead3_bias V c t _ _ rfl hi1

/-- An index of the output array is in point t's block iff each coordinate is in the block's range on its axis. -/
theorem scaleBlock3_mem (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v52).slice (win3_3.rect t)).set ↔ _
  rw [View.set_slice_whole, Rect.mem_set_unit]
  exact Iff.rfl

/-- After the region the output array is `postScale` of the three input arrays as the region found them: row r
    is in the block of point r / 5000, and the ten blocks of 5000 rows cover the 50000 rows. -/
theorem final3 (c : Dev nD) : (dat3 (F := Ideal) V c).arrAt 3 cfg3.N
    = Cert.Gcn.postScale (V c (Pipeline.arrRef spec3 0)) (V c (Pipeline.arrRef spec3 1)) (V c (Pipeline.arrRef spec3 2)) :=
  (dat3 V c).arrAt_eq_of_cover 3 _ (fun t _ => scaleWritten3 V c t) fun i => by
    have h0 : (i 0).val < 50000 := (i 0).isLt
    have h1 : (i 1).val < 64 := (i 1).isLt
    have hN : cfg3.N = 10 := N_3
    refine ⟨⟨(i 0).val / 5000, by rw [hN]; omega⟩, flush3_3 _, ?_⟩
    obtain ⟨-, -, -, -, -, -, e0, e1⟩ := scaleBlockIndex3 ⟨(i 0).val / 5000, by rw [hN]; omega⟩
    rw [scaleBlock3_mem]
    intro a
    match a with
    | ⟨0, _⟩ =>
      show win3_3.index _ (0 : Fin 2) * 5000 ≤ (i 0).val ∧ (i 0).val < win3_3.index _ (0 : Fin 2) * 5000 + 5000
      rw [e0]; show (i 0).val / 5000 * 5000 ≤ (i 0).val ∧ (i 0).val < (i 0).val / 5000 * 5000 + 5000; omega
    | ⟨1, _⟩ =>
      show win3_3.index _ (1 : Fin 2) * 64 ≤ (i 1).val ∧ (i 1).val < win3_3.index _ (1 : Fin 2) * 64 + 64
      rw [e1]; omega

end Cert.KernelIdeal.RegionValue

end
-- ==== Proof.RegionFinal.lean ====
/-
  What the last region leaves in its output array: the pooled features times the last weights, plus the bias row.

  The region has a single grid point. Each of its four windows is one block that is its whole array (block index
  (0, 0), block extents the array's extents), so a block's entry (p, k) is the array's entry (p, k). The body
  loads the three input blocks whole, forms the [50, 64] · [64, 2] product into a zero accumulator (the change of
  float format on the way in is the identity on the extended reals), adds the [1, 2] bias row repeated down the 50
  rows, and stores the [50, 2] result whole. Entry (p, q) of what is stored is therefore
      ∑ k, pooled (p, k) · weights (k, q)  +  bias (0, q),
  which is `Cert.Gcn.finalLin` of the three arrays at (p, q). The one point's block covers every index of the
  output array, so the array ends holding that function.
-/
import proofs.«125872_j46729244180997_2_alg».proof.Proof.Gen.KernelIdeal.Frame
import proofs.«125872_j46729244180997_2_alg».proof.Proof.Spec
import proofs.«125872_j46729244180997_2_alg».proof.Proof.LibPlainProduct
import proofs.«125872_j46729244180997_2_alg».proof.Proof.LibColumnLayout

import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx Idealize.ShloMosaic.ColumnLayout
open Idealize.ShloMosaic.Pipeline (Dat)

variable (V : (c : Dev nD) → (b : Ref sig .tc) → Buf (Elt Ideal) ((c : Thread nD τ).loc b))

/-- The offsets of a whole-block load or store are zero on both axes. -/
theorem finalOffsets_zero : (![0, 0] : Fin 2 → Nat) = fun _ => 0 := funext fun a => by fin_cases a <;> rfl

/-- The body's stored value at (p, q): row p of the first block times column q of the second, plus the third
    block's one row at q. The two identity casts drop out, the bias row repeated down the rows reads its one row,
    the product into the zero accumulator with the plain dimension numbers is the sum over the contracted axis,
    and narrowing the operands' float format changes nothing on the extended reals. -/
theorem finalPayload_apply (x0 : Vec Ideal S50x64 .f32) (x1 : Vec Ideal S64x2 .f32) (x2 : Vec Ideal S1x2 .f32)
    (p : Fin 50) (q : Fin 2) :
    k4_pay1 (F := Ideal) x0 x1 x2 (ix2 p q) = Cert.Dense.rowsTimes x0 x1 (ix2 p q) + x2 (ix2 (0 : Fin 1) q) := by
  unfold k4_pay1
  simp only [shapeCast_self]
  refine (addf_apply _ _ _).trans ?_
  rw [broadcastTo_1b_ab_apply]
  rw [Cert.Dense.matmul_zero_of_plain dot_S50x64_S64x2_S50x2_1_0_0_1_n_n rfl]
  rfl

/-- Every window's block index at the one grid point is (0, 0). -/
theorem finalBlockIndex : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled-features block at `y` is the pooled-features array at the index with the same coordinates: a
    block's coordinate is block index × block extent + the coordinate inside the block, and the block index is 0. -/
theorem finalRead_pooled (c : Dev nD) (t : Fin cfg4.N) (y i : S50x64.Idx) (h0 : (i 0).val = (y 0).val)
    (h1 : (i 1).val = (y 1).val) :
    (iblk4 V c 0 t : Vec Ideal S50x64 .f32) y = (V c (Pipeline.arrRef spec4 0) : S50x64.Idx → EReal) i := by
  obtain ⟨e0, e1, -⟩ := finalBlockIndex t
  unfold iblk4
  rw [View.read_apply]
  show V c (Pipeline.arrRef spec4 0) (((cfg4.win 0).blk t).view.emb y) = V c (Pipeline.arrRef spec4 0) i
  refine congrArg _ ?_
  funext a; apply Fin.ext
  match a with
  | ⟨0, _⟩ => show win4_0.index t (0 : Fin 2) * 50 + 1 * (y 0).val = (i 0).val; omega
  | ⟨1, _⟩ => show win4_0.index t (1 : Fin 2) * 64 + 1 * (y 1).val = (i 1).val; omega

/-- The weights block at `y` is the weights array at the index with the same coordinates. -/
theorem finalRead_weights (c : Dev nD) (t : Fin cfg4.N) (y i : S64x2.Idx) (h0 : (i 0).val = (y 0).val)
    (h1 : (i 1).val = (y 1).val) :
    (iblk4 V c 1 t : Vec Ideal S64x2 .f32) y = (V c (Pipeline.arrRef spec4 1) : S64x2.Idx → EReal) i := by
  obtain ⟨-, -, e0, e1, -⟩ := finalBlockIndex t
  unfold iblk4
  rw [View.read_apply]
  show V c (Pipeline.arrRef spec4 1) (((cfg4.win 1).blk t).view.emb y) = V c (Pipeline.arrRef spec4 1) i
  refine congrArg _ ?_
  funext a; apply Fin.ext
  match a with
  | ⟨0, _⟩ => show win4_1.index t (0 : Fin 2) * 64 + 1 * (y 0).val = (i 0).val; omega
  | ⟨1, _⟩ => show win4_1.index t (1 : Fin 2) * 2 + 1 * (y 1).val = (i 1).val; omega

/-- The bias-row block at `y` is the bias-row array at the index with the same coordinates. -/
theorem finalRead_bias (c : Dev nD) (t : Fin cfg4.N) (y i : S1x2.Idx) (h0 : (i 0).val = (y 0).val)
    (h1 : (i 1).val = (y 1).val) :
    (iblk4 V c 2 t : Vec Ideal S1x2 .f32) y = (V c (Pipeline.arrRef spec4 2) : S1x2.Idx → EReal) i := by
  obtain ⟨-, -, -, -, e0, e1, -⟩ := finalBlockIndex t
  unfold iblk4
  rw [View.read_apply]
  show V c (Pipeline.arrRef spec4 2) (((cfg4.win 2).blk t).view.emb y) = V c (Pipeline.arrRef spec4 2) i
  refine congrArg _ ?_
  funext a; apply Fin.ext
  match a with
  | ⟨0, _⟩ => show win4_2.index t (0 : Fin 2) * 1 + 1 * (y 0).val = (i 0).val; omega
  | ⟨1, _⟩ => show win4_2.index t (1 : Fin 2) * 2 + 1 * (y 1).val = (i 1).val; omega

/-- What the grid point writes back to the output array is its block of `finalLin` of the three input arrays:
    the one whole-block store leaves the body's value, the three whole-block loads read the input blocks, and at
    (p, q) the product's rows are rows of the pooled-features array (products of rows are rows of the product),
    its columns the weights' columns, and the bias entry the bias array's. -/
theorem finalWritten (c : Dev nD) (t : Fin cfg4.N) :
    (dat4 (F := Ideal) V c).flushed 3 t = ((cfg4.win 3).blk t).view.read (Elt Ideal)
      (Cert.Gcn.finalLin (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero finalOffsets_zero]
  simp only [View.ld_unit_zero (S := S50x64) finalOffsets_zero, View.ld_unit_zero (S := S64x2) finalOffsets_zero,
    View.ld_unit_zero (S := S1x2) finalOffsets_zero]
  obtain ⟨-, -, -, -, -, -, e0, e1⟩ := finalBlockIndex t
  funext j
  obtain ⟨p, q, rfl⟩ : ∃ (p : Fin 50) (q : Fin 2), j = ix2 p q := ⟨j 0, j 1, eq_ix2 j⟩
  rw [View.read_apply]
  show k4_pay1 (F := Ideal) (iblk4 V c 0 t) (iblk4 V c 1 t) (iblk4 V c 2 t) (ix2 p q) = _
  refine (finalPayload_apply (iblk4 V c 0 t) (iblk4 V c 1 t) (iblk4 V c 2 t) p q).trans ?_
  have hi0 : ((((cfg4.win 3).blk t).view.emb (ix2 p q) : S50x2.Idx) 0).val = p.val := by
    show win4_3.index t (0 : Fin 2) * 50 + 1 * p.val = p.val; omega
  have hi1 : ((((cfg4.win 3).blk t).view.emb (ix2 p q) : S50x2.Idx) 1).val = q.val := by
    show win4_3.index t (1 : Fin 2) * 2 + 1 * q.val = q.val; omega
  unfold Cert.Gcn.finalLin
  refine congrArg₂ (· + ·) ?_ ?_
  · exact Cert.Dense.rowsTimes_of_rows _ _ _ _ _ _
      (fun k => finalRead_pooled V c t _ _ hi0 rfl) (fun k => finalRead_weights V c t _ _ rfl hi1)
  · exact finalRead_bias V c t _ _ rfl hi1

/-- An index of the output array is in the point's block iff each coordinate is in the block's range on its axis. -/
theorem finalBlock_mem (t : Fin cfg4.N) (i : S50x2.Idx) :
    i ∈ ((cfg4.win 3).blk t).view.set ↔ ∀ a : Fin 2, win4_3.index t a * S50x2.size a ≤ (i a).val
      ∧ (i a).val < win4_3.index t a * S50x2.size a + S50x2.size a := by
  show i ∈ ((View.whole main_v66).slice (win4_3.rect t)).set ↔ _
  rw [View.set_slice_whole, Rect.mem_set_unit]
  exact Iff.rfl

/-- After the region the output array is `finalLin` of the three input arrays as the region found them: the one
    grid point's block, rows 0 … 49 and columns 0 … 1, is the whole array. -/
theorem final4 (c : Dev nD) : (dat4 (F := Ideal) V c).arrAt 3 cfg4.N
    = Cert.Gcn.finalLin (V c (Pipeline.arrRef spec4 0)) (V c (Pipeline.arrRef spec4 1)) (V c (Pipeline.arrRef spec4 2)) :=
  (dat4 V c).arrAt_eq_of_cover 3 _ (fun t _ => finalWritten V c t) fun i => ⟨t4_0, flush4_3 t4_0, by
    obtain ⟨-, -, -, -, -, -, e0, e1⟩ := finalBlockIndex t4_0
    rw [finalBlock_mem]
    intro a
    have h0 : (i 0).val < 50 := (i 0).isLt
    have h1 : (i 1).val < 2 := (i 1).isLt
    match a with
    | ⟨0, _⟩ => show win4_3.index t4_0 (0 : Fin 2) * 50 ≤ (i 0).val ∧ (i 0).val < win4_3.index t4_0 (0 : Fin 2) * 50 + 50; omega
    | ⟨1, _⟩ => show win4_3.index t4_0 (1 : Fin 2) * 2 ≤ (i 1).val ∧ (i 1).val < win4_3.index t4_0 (1 : Fin 2) * 2 + 2; omega⟩

end Cert.KernelIdeal.RegionValue

end
-- ==== Proof.LibVectorGather.lean ====
/-
  A general fact about gathering single entries of a vector.

  Take a vector with N entries and a column of R start indices (an R × 1 integer array). Gathering with the one axis
  collapsed, no offset axis, the start index naming that axis and slices of one entry produces a vector with R entries
  whose entry r is the vector's entry k, where k is the r-th start index read as a signed integer and clamped into
  0 … N − 1 (what indexing a vector by an integer array lowers to). Nothing here depends on a particular program.
-/
import Idealize.ShloMosaic.PureOps.Ideal
import Idealize.ShloMosaic.Lib.ValueIdx

noncomputable section

namespace Idealize.ShloMosaic.VectorGather

open Idealize.ShloMosaic Idealize.ShloMosaic.ValueIdx

variable {α : Type}

/-- The dimension numbers of a gather of single entries from a vector of `N` entries at an `R × 1` column of start
    indices. -/
abbrev entryDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `r` of a gather of single entries is the vector's entry `k`, `k` the `r`-th start index read signed and
    clamped into `0 … N − 1`. -/
theorem gather_entry_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entryDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entryDims N R wf).start (ix1 r) idx 0 + (entryDims N R wf).batchCoord (ix1 r) 0
        + (entryDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryDims N R wf).startIndexMap from List.mem_singleton.mpr rfl)]
    have hsi : (entryDims N R wf).siIdx (ix1 r) ⟨List.idxOf (0 : Fin 1) (entryDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Idealize.ShloMosaic.VectorGather

end
-- ==== Proof.RefLayer.lean ====
/-
  One layer of the reference's graph convolution, read entry by entry.

  After the node features have been multiplied by the layer's weights (a table `H` of 50000 rows and 64 columns) the
  reference does, in this order: it gathers row `src e` of `H` for every edge `e`; it forms the edge's factor
  `(dinv[src e] · ew e) · dinv[dst e]` from two gathers of single entries of `dinv`, lays the factors out as a column and
  repeats the column across the 64 features; it multiplies the gathered rows by the factors; it adds every edge's row
  onto the row of the edge's target node, starting from a table of zeros; it adds the bias row; and it takes the
  maximum with zero.

  Read at a node `r` and a feature `j` this is the specification's `layerEdge`: zero plus the sum, over the edges
  landing on `r`, of `H (src e, j)` times the edge's factor, plus `b j`, and the maximum of that with zero. A gather
  reads the row whose number is the start index read as a signed integer and clamped into 0 … 49999 (`rowOf`); the
  accumulation adds an edge's row onto node `r` exactly when the edge's target number, read signed, is `r`
  (`lands`). The sum over the 3250000 edges is never evaluated: both sides are the same sum of the same terms.
-/
import proofs.«125872_j46729244180997_2_alg».proof.Proof.Gen.ReferenceIdeal.Read
import proofs.«125872_j46729244180997_2_alg».proof.Proof.Spec
import proofs.«125872_j46729244180997_2_alg».proof.Proof.LibRowGather
import proofs.«125872_j46729244180997_2_alg».proof.Proof.LibVectorGather
import proofs.«125872_j46729244180997_2_alg».proof.Proof.LibRowScatterAdd
import proofs.«125872_j46729244180997_2_alg».proof.Proof.LibHostColumn

noncomputable section

namespace Cert.ReferenceIdeal.RefValue

open Cert.ReferenceIdeal Cert.ReferenceIdeal.Gen Cert.ReferenceIdeal.Read Cert.Gcn Cert.Dense
open Idealize.ShloMosaic Idealize.ShloMosaic.ValueIdx

/-- The printed record of the whole-row gather is the general one. -/
theorem rowGather_rec : gather_S50000x64_S3250000x1_S3250000x64_1_0_n_n_0_1_164
    = RowGather.rowDims 50000 3250000 64 gather_S50000x64_S3250000x1_S3250000x64_1_0_n_n_0_1_164_wf := rfl

/-- The printed record of the single-entry gather is the general one. -/
theorem entryGather_rec : gather_S50000_S3250000x1_S3250000_n_0_n_n_0_1_1
    = VectorGather.entryDims 50000 3250000 gather_S50000_S3250000x1_S3250000_n_0_n_n_0_1_1_wf := rfl

/-- The printed record of the whole-row accumulation is the general one. -/
theorem rowScatter_rec : scatter_S50000x64_S3250000x1_S3250000x64_1_0_0_1
    = RowScatter.rowDims 50000 3250000 64 scatter_S50000x64_S3250000x1_S3250000x64_1_0_0_1_wf := rfl

variable (H : FVec Ideal S50000x64 .f32) (D : FVec Ideal S50000 .f32) (EW : FVec Ideal S3250000 .f32)
  (SRC DST DSTN : IVec S3250000x1 32) (b : FVec Ideal S64 .f32)

/-- One layer's operations after the product with the weights, on a node table `H`. -/
def layerOps : FVec Ideal S50000x64 .f32 :=
  maximumf (addf (Host.scatterAdd (F := Ideal) scatter_S50000x64_S3250000x1_S3250000x64_1_0_0_1
      (broadcastInDim S50000x64 ![] bcast_S_S50000x64 (constant (F := Ideal) S_ .f32 0x00000000#32)) DST
      (mulf (Host.gather gather_S50000x64_S3250000x1_S3250000x64_1_0_n_n_0_1_164 H SRC)
        (broadcastInDim S3250000x64 ![0, 1] bcast_S3250000x1_S3250000x64_0_1
          (broadcastInDim S3250000x1 ![0] bcast_S3250000_S3250000x1_0
            (mulf (mulf (Host.gather gather_S50000_S3250000x1_S3250000_n_0_n_n_0_1_1 D SRC) EW)
              (Host.gather gather_S50000_S3250000x1_S3250000_n_0_n_n_0_1_1 D DSTN))))))
    (broadcastInDim S50000x64 ![0, 1] bcast_S1x64_S50000x64_0_1 (broadcastInDim S1x64 ![1] bcast_S64_S1x64_1 b)))
  (broadcastInDim S50000x64 ![] bcast_S_S50000x64 (constant (F := Ideal) S_ .f32 0x00000000#32))

/-- The table of zeros the accumulation starts from, at an entry. -/
theorem zeroFill_apply (i : S50000x64.Idx) :
    broadcastInDim S50000x64 ![] bcast_S_S50000x64 (constant (F := Ideal) S_ .f32 0x00000000#32) i = zeroW :=
  broadcastInDim_apply _ bcast_S_S50000x64 _ i (fun a => a.elim0) (fun a => a.elim0)

/-- The bias repeated down the rows, at an entry. -/
theorem biasRows_apply (r : Fin 50000) (j : Fin 64) :
    broadcastInDim S50000x64 ![0, 1] bcast_S1x64_S50000x64_0_1 (broadcastInDim S1x64 ![1] bcast_S64_S1x64_1 b) (ix2 r j)
      = b (ix1 j) :=
  HostColumn.row_apply b bcast_S64_S1x64_1 bcast_S1x64_S50000x64_0_1 r j

/-- The gathered rows: edge `e` reads row `rowOf SRC e`. -/
theorem rowsOf_apply (e : Fin 3250000) (j : Fin 64) :
    Host.gather gather_S50000x64_S3250000x1_S3250000x64_1_0_n_n_0_1_164 H SRC (ix2 e j) = H (ix2 (rowOf SRC e) j) := by
  rw [rowGather_rec]
  exact RowGather.gather_row_apply (by decide) _ H SRC e j

/-- The gathered entries of a vector: edge `e` reads entry `rowOf idx e`. -/
theorem entryOf_apply (idx : IVec S3250000x1 32) (e : Fin 3250000) :
    Host.gather gather_S50000_S3250000x1_S3250000_n_0_n_n_0_1_1 D idx (ix1 e) = D (ix1 (rowOf idx e)) := by
  rw [entryGather_rec]
  exact VectorGather.gather_entry_apply (by decide) _ D idx e

/-- A per-edge vector laid out as a column and repeated across the features, at an entry. -/
theorem edgeColumn_apply (v : FVec Ideal S3250000 .f32) (e : Fin 3250000) (j : Fin 64) :
    broadcastInDim S3250000x64 ![0, 1] bcast_S3250000x1_S3250000x64_0_1
      (broadcastInDim S3250000x1 ![0] bcast_S3250000_S3250000x1_0 v) (ix2 e j) = v (ix1 e) :=
  HostColumn.column_apply v bcast_S3250000_S3250000x1_0 bcast_S3250000x1_S3250000x64_0_1 e j

/-- The accumulated rows at an entry: the operand's entry plus the sum over the edges landing on the row. -/
theorem rowsAdded_apply (x : FVec Ideal S50000x64 .f32) (upd : FVec Ideal S3250000x64 .f32) (r : Fin 50000) (j : Fin 64) :
    Host.scatterAdd (F := Ideal) scatter_S50000x64_S3250000x1_S3250000x64_1_0_0_1 x DST upd (ix2 r j)
      = x (ix2 r j) + ∑ e : Fin 3250000, if lands DST e r then upd (ix2 e j) else 0 := by
  rw [rowScatter_rec]
  exact RowScatter.host_scatterAdd_row_apply _ x DST upd r j

/-- The layer's operations compute the specification's layer with one factor per edge. -/
theorem layerOps_eq : layerOps H D EW SRC DST DSTN b = layerEdge H D EW SRC DST DSTN b := by
  funext i
  obtain ⟨r, j, rfl⟩ : ∃ (r : Fin 50000) (j : Fin 64), i = ix2 r j := ⟨i 0, i 1, eq_ix2 i⟩
  unfold layerOps layerEdge
  rw [maximumf_apply, addf_apply, zeroFill_apply, biasRows_apply, rowsAdded_apply, zeroFill_apply]
  refine congrArg (fun s => max ((zeroW + s) + b (ix1 j)) zeroW) (Finset.sum_congr rfl fun e _ => ?_)
  by_cases h : lands DST e r
  · rw [if_pos h, if_pos h, mulf_apply, rowsOf_apply, edgeColumn_apply, mulf_apply, mulf_apply, entryOf_apply, entryOf_apply]
  · rw [if_neg h, if_neg h]

end Cert.ReferenceIdeal.RefValue

end
-- ==== Proof.RefValue.lean ====
/-
  The reference's result as the specification's function of its arguments.

  The reference multiplies the node features by the first layer's weights, runs one layer of the graph convolution,
  multiplies by the second layer's weights, runs the layer again, takes the mean of the node rows over each graph and
  applies a last linear map. Three facts are read off its operations one at a time:

  * each product with a weight matrix is, entry by entry, the sum over the contraction index of row entry times
    column entry (`rowsTimes`);
  * each layer is the specification's `layerEdge` of the product, the per-node factors, the edge weights and the
    three columns of node numbers. The second layer recomputes the per-node factors and the columns of node numbers
    from the same arguments by the same operations, so they are the first layer's, term for term;
  * the result is the product of the pooled rows with the last weights plus the last bias. The pooling is carried as
    one function `pool` of the graph numbers and the node table and is never read at an entry.
-/
import proofs.«125872_j46729244180997_2_alg».proof.Proof.Gen.ReferenceIdeal.Read
import proofs.«125872_j46729244180997_2_alg».proof.Proof.Spec
import proofs.«125872_j46729244180997_2_alg».proof.Proof.LibHostColumn
import proofs.«125872_j46729244180997_2_alg».proof.Proof.RefLayer

noncomputable section

namespace Cert.ReferenceIdeal.RefValue

open Cert.ReferenceIdeal Cert.ReferenceIdeal.Gen Cert.ReferenceIdeal.Read Cert.Gcn Cert.Dense
open Idealize.ShloMosaic Idealize.ShloMosaic.ValueIdx

variable (x0 : (⟨S50000x5, .f32⟩ : BufTy).Contents (Elt Ideal)) (x1 : (⟨S2x3200000, .i32⟩ : BufTy).Contents (Elt Ideal))
  (x2 : (⟨S3200000x1, .f32⟩ : BufTy).Contents (Elt Ideal)) (x3 : (⟨S50000, .i32⟩ : BufTy).Contents (Elt Ideal))
  (x4 : (⟨S5x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x2, .f32⟩ : BufTy).Contents (Elt Ideal)) (x9 : (⟨S2, .f32⟩ : BufTy).Contents (Elt Ideal))

/-- The column of source numbers used to gather rows is the one used to gather the per-node factors. -/
theorem src_again : val_main_v42 (F := Ideal) x1 = val_main_v25 x1 := rfl

/-- The column of target numbers the rows are accumulated at is the one the degrees were accumulated at. -/
theorem dst_again : val_main_v48 (F := Ideal) x1 = val_main_v11 x1 := rfl

/-- The first product, entry by entry. -/
theorem prod1 : val_main_v36 (F := Ideal) x0 x4 = rowsTimes x0 x4 := by
  funext i
  rw [val_main_v36_apply]
  refine Finset.sum_congr rfl fun k _ => ?_
  have el : lidx_main_v36 i k = ix2 (i 0 : Fin 50000) k := funext fun a => by
    match a with
    | ⟨0, _⟩ => rfl
    | ⟨1, _⟩ => rfl
  have er : ridx_main_v36 i k = ix2 k (i 1 : Fin 64) := funext fun a => by
    match a with
    | ⟨0, _⟩ => rfl
    | ⟨1, _⟩ => rfl
  rw [el, er]
  rfl

/-- The first layer's operations are `layerOps` on the first product. -/
theorem layer1_ops : val_main_v53 (F := Ideal) x0 x1 x2 x4 x5
    = layerOps (val_main_v36 x0 x4) (val_main_v19 x1 x2) (val_main_v9 x2) (val_main_v25 x1) (val_main_v11 x1) (val_main_v33 x1) x5 := by
  rw [← src_again, ← dst_again]
  rfl

/-- The first layer is the specification's layer of the first product. -/
theorem layer1 : val_main_v53 (F := Ideal) x0 x1 x2 x4 x5
    = layerEdge (rowsTimes x0 x4) (val_main_v19 x1 x2) (val_main_v9 x2) (val_main_v25 x1) (val_main_v11 x1) (val_main_v33 x1) x5 := by
  rw [layer1_ops, layerOps_eq, prod1]

/-- The second layer's per-node factors are the first layer's. -/
theorem dinv_again : val_main_v63 (F := Ideal) x1 x2 = val_main_v19 x1 x2 := rfl

/-- The second layer's column of source numbers (for the factors) is the first layer's. -/
theorem src_again2 : val_main_v69 (F := Ideal) x1 = val_main_v25 x1 := rfl

/-- The second layer's column of wrapped target numbers is the first layer's. -/
theorem dstN_again : val_main_v77 (F := Ideal) x1 = val_main_v33 x1 := rfl

/-- The second layer's column of source numbers (for the rows) is the first layer's. -/
theorem src_again3 : val_main_v86 (F := Ideal) x1 = val_main_v25 x1 := rfl

/-- The second layer's column of target numbers is the first layer's. -/
theorem dst_again2 : val_main_v92 (F := Ideal) x1 = val_main_v11 x1 := rfl

/-- The second product, entry by entry. -/
theorem prod2 : val_main_v80 (F := Ideal) x0 x1 x2 x4 x5 x6 = rowsTimes (val_main_v53 x0 x1 x2 x4 x5) x6 := by
  funext i
  rw [val_main_v80_apply]
  generalize val_main_v53 (F := Ideal) x0 x1 x2 x4 x5 = y
  refine Finset.sum_congr rfl fun k _ => ?_
  have el : lidx_main_v80 i k = ix2 (i 0 : Fin 50000) k := funext fun a => by
    match a with
    | ⟨0, _⟩ => rfl
    | ⟨1, _⟩ => rfl
  have er : ridx_main_v80 i k = ix2 k (i 1 : Fin 64) := funext fun a => by
    match a with
    | ⟨0, _⟩ => rfl
    | ⟨1, _⟩ => rfl
  rw [el, er]
  rfl

/-- The second layer's operations are `layerOps` on the second product, with the first layer's factors and columns. -/
theorem layer2_ops : val_main_v97 (F := Ideal) x0 x1 x2 x4 x5 x6 x7
    = layerOps (val_main_v80 x0 x1 x2 x4 x5 x6) (val_main_v19 x1 x2) (val_main_v9 x2) (val_main_v25 x1) (val_main_v11 x1) (val_main_v33 x1) x7 := by
  rw [← dinv_again, ← dst_again2, ← dstN_again]
  rfl

/-- The second layer is the specification's layer of the second product. -/
theorem layer2 : val_main_v97 (F := Ideal) x0 x1 x2 x4 x5 x6 x7
    = layerEdge (rowsTimes (val_main_v53 x0 x1 x2 x4 x5) x6) (val_main_v19 x1 x2) (val_main_v9 x2) (val_main_v25 x1)
        (val_main_v11 x1) (val_main_v33 x1) x7 := by
  rw [layer2_ops, layerOps_eq, prod2]

/-- The mean over each graph's nodes: every node's row is added onto the row of the node's graph, the graphs' node
    counts are accumulated the same way from a vector of ones, and each graph's row is divided by the larger of its
    count and one. A function of the graph numbers `x3` and of the node table `h`; it is carried as one function and
    never read at an entry. -/
def pool (x3 : (⟨S50000, .i32⟩ : BufTy).Contents (Elt Ideal)) (h : (⟨S50000x64, .f32⟩ : BufTy).Contents (Elt Ideal)) :
    (⟨S50x64, .f32⟩ : BufTy).Contents (Elt Ideal) :=
  Host.divf (F := Ideal)
    (Host.scatterAdd (F := Ideal) scatter_S50x64_S50000x1_S50000x64_1_0_0_1
      (broadcastInDim S50x64 ![] bcast_S_S50x64 (constant (F := Ideal) S_ .f32 0x00000000#32))
      (broadcastInDim S50000x1 ![0] bcast_S50000_S50000x1_0 x3) h)
    (broadcastInDim S50x64 ![0, 1] bcast_S50x1_S50x64_0_1
      (broadcastInDim S50x1 ![0] bcast_S50_S50x1_0
        (maximumf
          (Host.scatterAdd (F := Ideal) scatter_S50_S50000x1_S50000_n_0_0_1
            (broadcastInDim S50 ![] bcast_S_S50 (constant (F := Ideal) S_ .f32 0x00000000#32))
            (broadcastInDim S50000x1 ![0] bcast_S50000_S50000x1_0 x3)
            (broadcastInDim S50000 ![] bcast_S_S50000 (constant (F := Ideal) S_ .f32 0x3F800000#32)))
          (broadcastInDim S50 ![] bcast_S_S50 (constant (F := Ideal) S_ .f32 0x3F800000#32)))))

/-- The reference's pooled rows are `pool` of the second layer's result. -/
theorem pooled : val_main_v109 (F := Ideal) x0 x1 x2 x3 x4 x5 x6 x7 = pool x3 (val_main_v97 x0 x1 x2 x4 x5 x6 x7) := rfl

/-- The reference's result: pooled rows times the last weights, plus the last bias. -/
theorem ref_value : val_main_v113 (F := Ideal) x0 x1 x2 x3 x4 x5 x6 x7 x8 x9
    = fun i => rowsTimes (pool x3 (val_main_v97 x0 x1 x2 x4 x5 x6 x7)) x8 i + x9 (ix1 (i 1 : Fin 2)) := by
  funext i
  obtain ⟨p, q, rfl⟩ : ∃ (p : Fin 50) (q : Fin 2), i = ix2 p q := ⟨i 0, i 1, eq_ix2 i⟩
  rw [val_main_v113_apply, Ideal.addf_def, val_main_v110_apply, pooled]
  generalize pool x3 (val_main_v97 (F := Ideal) x0 x1 x2 x4 x5 x6 x7) = y
  have hb : val_main_v112 (F := Ideal) x9 (ix2 p q) = x9 (ix1 q) := by
    unfold val_main_v112 val_main_v111
    exact HostColumn.row_apply x9 bcast_S2_S1x2_1 bcast_S1x2_S50x2_0_1 p q
  rw [hb]
  refine congrArg (· + x9 (ix1 q)) (Finset.sum_congr rfl fun k _ => ?_)
  have el : lidx_main_v110 (ix2 p q) k = ix2 p k := funext fun a => by
    match a with
    | ⟨0, _⟩ => rfl
    | ⟨1, _⟩ => rfl
  have er : ridx_main_v110 (ix2 p q) k = ix2 k q := funext fun a => by
    match a with
    | ⟨0, _⟩ => rfl
    | ⟨1, _⟩ => rfl
  rw [el, er]

end Cert.ReferenceIdeal.RefValue

end
-- ==== Proof.KStages.lean ====
/-
  The kernel program's buffers from its first region to its last.

  Each boundary between a stretch of host operations and a kernel region has its contents: a region leaves in its
  output array the whole-array function of its input arrays (the product with the source-side scale, the target-side
  scale with bias and maximum, the last linear map) and every other buffer as it found it; a stretch of host
  operations leaves in each buffer it writes its operation applied to the operands' contents, and every other buffer
  as it found it. Followed from the first region's entry to the last region's exit, the returned buffer holds the
  last linear map of the pooled second layer, each layer in the form with the normalisation split into two node
  factors. The per-node factor, the edge weights and the source and target numbers are the reference's own stages.
-/
import proofs.«125872_j46729244180997_2_alg».proof.Proof.KPrefix
import proofs.«125872_j46729244180997_2_alg».proof.Proof.RegionProduct
import proofs.«125872_j46729244180997_2_alg».proof.Proof.RegionScale
import proofs.«125872_j46729244180997_2_alg».proof.Proof.RegionFinal
import proofs.«125872_j46729244180997_2_alg».proof.Proof.RefValue
import Idealize.ShloMosaic.Lib.StableHlo.Run
import Idealize.ShloMosaic.Lib.ValueLayout

set_option quotPrecheck false

noncomputable section

namespace Cert.KernelIdeal.KValue

open Cert.KernelIdeal Cert.KernelIdeal.Gen Cert.Gcn Cert.Dense
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

local notation "a0" => (m ((c : Thread nD τ).loc main_arg0) : FVec Ideal S50000x5 .f32)
local notation "a1" => (m ((c : Thread nD τ).loc main_arg1) : IVec S2x3200000 32)
local notation "a2" => (m ((c : Thread nD τ).loc main_arg2) : FVec Ideal S3200000x1 .f32)
local notation "a3" => (m ((c : Thread nD τ).loc main_arg3) : IVec S50000 32)
local notation "a4" => (m ((c : Thread nD τ).loc main_arg4) : FVec Ideal S5x64 .f32)
local notation "a5" => (m ((c : Thread nD τ).loc main_arg5) : FVec Ideal S64 .f32)
local notation "a6" => (m ((c : Thread nD τ).loc main_arg6) : FVec Ideal S64x64 .f32)
local notation "a7" => (m ((c : Thread nD τ).loc main_arg7) : FVec Ideal S64 .f32)
local notation "a8" => (m ((c : Thread nD τ).loc main_arg8) : FVec Ideal S64x2 .f32)
local notation "a9" => (m ((c : Thread nD τ).loc main_arg9) : FVec Ideal S2 .f32)
/-- The per-node factor, the edge weights, the wrapped source numbers and the target numbers as columns. -/
local notation "D" => Cert.ReferenceIdeal.Read.val_main_v19 (F := Ideal) a1 a2
local notation "EW" => Cert.ReferenceIdeal.Read.val_main_v9 (F := Ideal) a2
local notation "SRC" => Cert.ReferenceIdeal.Read.val_main_v25 (F := Ideal) a1
local notation "DST" => Cert.ReferenceIdeal.Read.val_main_v11 (F := Ideal) a1

/-- The first layer's result. -/
def h1 : FVec Ideal S50000x64 .f32 := layerSplit (rowsTimes a0 a4) D EW SRC DST a5
/-- The second layer's result. -/
def h2 : FVec Ideal S50000x64 .f32 := layerSplit (rowsTimes (h1 m c) a6) D EW SRC DST a7

/-! ## The first layer -/

theorem W6_v21 : W6 m ρ c (Proc.devRef .tc main_v21) = mmScale a0 a4 (dcolOf D) := by
  refine (W6_arr m ρ c 3).trans ((RegionValue.final0 (V5 m ρ) c).trans ?_)
  show mmScale (K := 5) (W5 m ρ c (Proc.devRef .tc main_arg0)) (W5 m ρ c (Proc.devRef .tc main_arg4)) (W5 m ρ c (Proc.devRef .tc main_v20)) = _
  rw [W5_arg0, W5_arg4, W5_v20]

theorem W6_v4 : W6 m ρ c (Proc.devRef .tc main_v4) = (Cert.ReferenceIdeal.Read.val_main_v4 (F := Ideal) a1) :=
  (W6_of_ne m ρ c main_v4 (by decide)).trans (W5_v4 m ρ c)

theorem W6_v7 : W6 m ρ c (Proc.devRef .tc main_v7) = (Cert.ReferenceIdeal.Read.val_main_v7 (F := Ideal) a1) :=
  (W6_of_ne m ρ c main_v7 (by decide)).trans (W5_v7 m ρ c)

theorem W6_v9 : W6 m ρ c (Proc.devRef .tc main_v9) = EW :=
  (W6_of_ne m ρ c main_v9 (by decide)).trans (W5_v9 m ρ c)

theorem W6_arg3 : W6 m ρ c (Proc.devRef .tc main_arg3) = a3 :=
  (W6_of_ne m ρ c main_arg3 (by decide)).trans (W5_arg3 m ρ c)

theorem W6_arg5 : W6 m ρ c (Proc.devRef .tc main_arg5) = a5 :=
  (W6_of_ne m ρ c main_arg5 (by decide)).trans (W5_arg5 m ρ c)

theorem W6_arg6 : W6 m ρ c (Proc.devRef .tc main_arg6) = a6 :=
  (W6_of_ne m ρ c main_arg6 (by decide)).trans (W5_arg6 m ρ c)

theorem W6_arg7 : W6 m ρ c (Proc.devRef .tc main_arg7) = a7 :=
  (W6_of_ne m ρ c main_arg7 (by decide)).trans (W5_arg7 m ρ c)

theorem W6_arg8 : W6 m ρ c (Proc.devRef .tc main_arg8) = a8 :=
  (W6_of_ne m ρ c main_arg8 (by decide)).trans (W5_arg8 m ρ c)

theorem W6_arg9 : W6 m ρ c (Proc.devRef .tc main_arg9) = a9 :=
  (W6_of_ne m ρ c main_arg9 (by decide)).trans (W5_arg9 m ρ c)

theorem W6_v20 : W6 m ρ c (Proc.devRef .tc main_v20) = dcolOf D :=
  ((W6_arr m ρ c 2).trans (((dat0 (V5 m ρ) c).arrAt_in 2 rfl _).trans (A_eq0 (V5 m ρ) c 2))).trans (W5_v20 m ρ c)

theorem W7_v34 : W7 m ρ c (Proc.devRef .tc main_v34) = aggOps (mmScale a0 a4 (dcolOf D)) EW SRC DST := by
  have e : W7 m ρ c (Proc.devRef .tc main_v34) = aggOps (W6 m ρ c (Proc.devRef .tc main_v21)) (W6 m ρ c (Proc.devRef .tc main_v9)) (broadcastInDim S3250000x1 ![0] bcast_S3250000_S3250000x1_0 (select (cmpi .slt (W6 m ρ c (Proc.devRef .tc main_v4)) (broadcastInDim S3250000 ![] bcast_S_S3250000 (constantI S_ 32 0#32))) (addi (W6 m ρ c (Proc.devRef .tc main_v4)) (broadcastInDim S3250000 ![] bcast_S_S3250000 (constantI S_ 32 50000#32))) (W6 m ρ c (Proc.devRef .tc main_v4))))
      (broadcastInDim S3250000x1 ![0] bcast_S3250000_S3250000x1_0 (W6 m ρ c (Proc.devRef .tc main_v7))) := by
    show after hostOps1 (W6 m ρ c) _ = _
    generalize W6 m ρ c = V
    after_results_simp
    try rfl
  rw [e, W6_v21, W6_v9, W6_v4, W6_v7]
  rfl

theorem W7_v35 : W7 m ρ c (Proc.devRef .tc main_v35) = browOf a5 := by
  have e : W7 m ρ c (Proc.devRef .tc main_v35) = browOf (W6 m ρ c (Proc.devRef .tc main_arg5)) := by
    show after hostOps1 (W6 m ρ c) _ = _
    generalize W6 m ρ c = V
    after_results_simp
    try rfl
  rw [e, W6_arg5]

theorem W7_v20 : W7 m ρ c (Proc.devRef .tc main_v20) = dcolOf D := by
  have e : W7 m ρ c (Proc.devRef .tc main_v20) = W6 m ρ c (Proc.devRef .tc main_v20) := by
    show after hostOps1 (W6 m ρ c) _ = _
    generalize W6 m ρ c = V
    after_results
  rw [e]
  exact W6_v20 m ρ c

theorem W7_v4 : W7 m ρ c (Proc.devRef .tc main_v4) = (Cert.ReferenceIdeal.Read.val_main_v4 (F := Ideal) a1) := by
  have e : W7 m ρ c (Proc.devRef .tc main_v4) = W6 m ρ c (Proc.devRef .tc main_v4) := by
    show after hostOps1 (W6 m ρ c) _ = _
    generalize W6 m ρ c = V
    after_results
  rw [e]
  exact W6_v4 m ρ c

theorem W7_v7 : W7 m ρ c (Proc.devRef .tc main_v7) = (Cert.ReferenceIdeal.Read.val_main_v7 (F := Ideal) a1) := by
  have e : W7 m ρ c (Proc.devRef .tc main_v7) = W6 m ρ c (Proc.devRef .tc main_v7) := by
    show after hostOps1 (W6 m ρ c) _ = _
    generalize W6 m ρ c = V
    after_results
  rw [e]
  exact W6_v7 m ρ c

theorem W7_v9 : W7 m ρ c (Proc.devRef .tc main_v9) = EW := by
  have e : W7 m ρ c (Proc.devRef .tc main_v9) = W6 m ρ c (Proc.devRef .tc main_v9) := by
    show after hostOps1 (W6 m ρ c) _ = _
    generalize W6 m ρ c = V
    after_results
  rw [e]
  exact W6_v9 m ρ c

theorem W7_arg3 : W7 m ρ c (Proc.devRef .tc main_arg3) = a3 := by
  have e : W7 m ρ c (Proc.devRef .tc main_arg3) = W6 m ρ c (Proc.devRef .tc main_arg3) := by
    show after hostOps1 (W6 m ρ c) _ = _
    generalize W6 m ρ c = V
    after_results
  rw [e]
  exact W6_arg3 m ρ c

theorem W7_arg6 : W7 m ρ c (Proc.devRef .tc main_arg6) = a6 := by
  have e : W7 m ρ c (Proc.devRef .tc main_arg6) = W6 m ρ c (Proc.devRef .tc main_arg6) := by
    show after hostOps1 (W6 m ρ c) _ = _
    generalize W6 m ρ c = V
    after_results
  rw [e]
  exact W6_arg6 m ρ c

theorem W7_arg7 : W7 m ρ c (Proc.devRef .tc main_arg7) = a7 := by
  have e : W7 m ρ c (Proc.devRef .tc main_arg7) = W6 m ρ c (Proc.devRef .tc main_arg7) := by
    show after hostOps1 (W6 m ρ c) _ = _
    generalize W6 m ρ c = V
    after_results
  rw [e]
  exact W6_arg7 m ρ c

theorem W7_arg8 : W7 m ρ c (Proc.devRef .tc main_arg8) = a8 := by
  have e : W7 m ρ c (Proc.devRef .tc main_arg8) = W6 m ρ c (Proc.devRef .tc main_arg8) := by
    show after hostOps1 (W6 m ρ c) _ = _
    generalize W6 m ρ c = V
    after_results
  rw [e]
  exact W6_arg8 m ρ c

theorem W7_arg9 : W7 m ρ c (Proc.devRef .tc main_arg9) = a9 := by
  have e : W7 m ρ c (Proc.devRef .tc main_arg9) = W6 m ρ c (Proc.devRef .tc main_arg9) := by
    show after hostOps1 (W6 m ρ c) _ = _
    generalize W6 m ρ c = V
    after_results
  rw [e]
  exact W6_arg9 m ρ c

theorem W8_v36 : W8 m ρ c (Proc.devRef .tc main_v36) = h1 m c := by
  refine (W8_arr m ρ c 3).trans ((RegionValue.final1 (V7 m ρ) c).trans ?_)
  show postScale (W7 m ρ c (Proc.devRef .tc main_v34)) (W7 m ρ c (Proc.devRef .tc main_v20)) (W7 m ρ c (Proc.devRef .tc main_v35)) = _
  rw [W7_v34, W7_v20, W7_v35]
  exact kernel_layer D EW SRC DST a5 a0 a4

theorem W8_v4 : W8 m ρ c (Proc.devRef .tc main_v4) = (Cert.ReferenceIdeal.Read.val_main_v4 (F := Ideal) a1) :=
  (W8_of_ne m ρ c main_v4 (by decide)).trans (W7_v4 m ρ c)

theorem W8_v7 : W8 m ρ c (Proc.devRef .tc main_v7) = (Cert.ReferenceIdeal.Read.val_main_v7 (F := Ideal) a1) :=
  (W8_of_ne m ρ c main_v7 (by decide)).trans (W7_v7 m ρ c)

theorem W8_v9 : W8 m ρ c (Proc.devRef .tc main_v9) = EW :=
  (W8_of_ne m ρ c main_v9 (by decide)).trans (W7_v9 m ρ c)

theorem W8_arg3 : W8 m ρ c (Proc.devRef .tc main_arg3) = a3 :=
  (W8_of_ne m ρ c main_arg3 (by decide)).trans (W7_arg3 m ρ c)

theorem W8_arg6 : W8 m ρ c (Proc.devRef .tc main_arg6) = a6 :=
  (W8_of_ne m ρ c main_arg6 (by decide)).trans (W7_arg6 m ρ c)

theorem W8_arg7 : W8 m ρ c (Proc.devRef .tc main_arg7) = a7 :=
  (W8_of_ne m ρ c main_arg7 (by decide)).trans (W7_arg7 m ρ c)

theorem W8_arg8 : W8 m ρ c (Proc.devRef .tc main_arg8) = a8 :=
  (W8_of_ne m ρ c main_arg8 (by decide)).trans (W7_arg8 m ρ c)

theorem W8_arg9 : W8 m ρ c (Proc.devRef .tc main_arg9) = a9 :=
  (W8_of_ne m ρ c main_arg9 (by decide)).trans (W7_arg9 m ρ c)

theorem W8_v20 : W8 m ρ c (Proc.devRef .tc main_v20) = dcolOf D :=
  ((W8_arr m ρ c 1).trans (((dat1 (V7 m ρ) c).arrAt_in 1 rfl _).trans (A_eq1 (V7 m ρ) c 1))).trans (W7_v20 m ρ c)

/-! ## The second layer -/

theorem W9_v37 : W9 m ρ c (Proc.devRef .tc main_v37) = mmScale (h1 m c) a6 (dcolOf D) := by
  refine (W9_arr m ρ c 3).trans ((RegionValue.final2 (V8 m ρ) c).trans ?_)
  show mmScale (K := 64) (W8 m ρ c (Proc.devRef .tc main_v36)) (W8 m ρ c (Proc.devRef .tc main_arg6)) (W8 m ρ c (Proc.devRef .tc main_v20)) = _
  rw [W8_v36, W8_arg6, W8_v20]

theorem W9_v4 : W9 m ρ c (Proc.devRef .tc main_v4) = (Cert.ReferenceIdeal.Read.val_main_v4 (F := Ideal) a1) :=
  (W9_of_ne m ρ c main_v4 (by decide)).trans (W8_v4 m ρ c)

theorem W9_v7 : W9 m ρ c (Proc.devRef .tc main_v7) = (Cert.ReferenceIdeal.Read.val_main_v7 (F := Ideal) a1) :=
  (W9_of_ne m ρ c main_v7 (by decide)).trans (W8_v7 m ρ c)

theorem W9_v9 : W9 m ρ c (Proc.devRef .tc main_v9) = EW :=
  (W9_of_ne m ρ c main_v9 (by decide)).trans (W8_v9 m ρ c)

theorem W9_arg3 : W9 m ρ c (Proc.devRef .tc main_arg3) = a3 :=
  (W9_of_ne m ρ c main_arg3 (by decide)).trans (W8_arg3 m ρ c)

theorem W9_arg7 : W9 m ρ c (Proc.devRef .tc main_arg7) = a7 :=
  (W9_of_ne m ρ c main_arg7 (by decide)).trans (W8_arg7 m ρ c)

theorem W9_arg8 : W9 m ρ c (Proc.devRef .tc main_arg8) = a8 :=
  (W9_of_ne m ρ c main_arg8 (by decide)).trans (W8_arg8 m ρ c)

theorem W9_arg9 : W9 m ρ c (Proc.devRef .tc main_arg9) = a9 :=
  (W9_of_ne m ρ c main_arg9 (by decide)).trans (W8_arg9 m ρ c)

theorem W9_v20 : W9 m ρ c (Proc.devRef .tc main_v20) = dcolOf D :=
  ((W9_arr m ρ c 2).trans (((dat2 (V8 m ρ) c).arrAt_in 2 rfl _).trans (A_eq2 (V8 m ρ) c 2))).trans (W8_v20 m ρ c)

theorem W10_v50 : W10 m ρ c (Proc.devRef .tc main_v50) = aggOps (mmScale (h1 m c) a6 (dcolOf D)) EW SRC DST := by
  have e : W10 m ρ c (Proc.devRef .tc main_v50) = aggOps (W9 m ρ c (Proc.devRef .tc main_v37)) (W9 m ρ c (Proc.devRef .tc main_v9)) (broadcastInDim S3250000x1 ![0] bcast_S3250000_S3250000x1_0 (select (cmpi .slt (W9 m ρ c (Proc.devRef .tc main_v4)) (broadcastInDim S3250000 ![] bcast_S_S3250000 (constantI S_ 32 0#32))) (addi (W9 m ρ c (Proc.devRef .tc main_v4)) (broadcastInDim S3250000 ![] bcast_S_S3250000 (constantI S_ 32 50000#32))) (W9 m ρ c (Proc.devRef .tc main_v4))))
      (broadcastInDim S3250000x1 ![0] bcast_S3250000_S3250000x1_0 (W9 m ρ c (Proc.devRef .tc main_v7))) := by
    show after hostOps3 (W9 m ρ c) _ = _
    generalize W9 m ρ c = V
    after_results_simp
    try rfl
  rw [e, W9_v37, W9_v9, W9_v4, W9_v7]
  rfl

theorem W10_v51 : W10 m ρ c (Proc.devRef .tc main_v51) = browOf a7 := by
  have e : W10 m ρ c (Proc.devRef .tc main_v51) = browOf (W9 m ρ c (Proc.devRef .tc main_arg7)) := by
    show after hostOps3 (W9 m ρ c) _ = _
    generalize W9 m ρ c = V
    after_results_simp
    try rfl
  rw [e, W9_arg7]

theorem W10_v20 : W10 m ρ c (Proc.devRef .tc main_v20) = dcolOf D := by
  have e : W10 m ρ c (Proc.devRef .tc main_v20) = W9 m ρ c (Proc.devRef .tc main_v20) := by
    show after hostOps3 (W9 m ρ c) _ = _
    generalize W9 m ρ c = V
    after_results
  rw [e]
  exact W9_v20 m ρ c

theorem W10_arg3 : W10 m ρ c (Proc.devRef .tc main_arg3) = a3 := by
  have e : W10 m ρ c (Proc.devRef .tc main_arg3) = W9 m ρ c (Proc.devRef .tc main_arg3) := by
    show after hostOps3 (W9 m ρ c) _ = _
    generalize W9 m ρ c = V
    after_results
  rw [e]
  exact W9_arg3 m ρ c

theorem W10_arg8 : W10 m ρ c (Proc.devRef .tc main_arg8) = a8 := by
  have e : W10 m ρ c (Proc.devRef .tc main_arg8) = W9 m ρ c (Proc.devRef .tc main_arg8) := by
    show after hostOps3 (W9 m ρ c) _ = _
    generalize W9 m ρ c = V
    after_results
  rw [e]
  exact W9_arg8 m ρ c

theorem W10_arg9 : W10 m ρ c (Proc.devRef .tc main_arg9) = a9 := by
  have e : W10 m ρ c (Proc.devRef .tc main_arg9) = W9 m ρ c (Proc.devRef .tc main_arg9) := by
    show after hostOps3 (W9 m ρ c) _ = _
    generalize W9 m ρ c = V
    after_results
  rw [e]
  exact W9_arg9 m ρ c

theorem W11_v52 : W11 m ρ c (Proc.devRef .tc main_v52) = h2 m c := by
  refine (W11_arr m ρ c 3).trans ((RegionValue.final3 (V10 m ρ) c).trans ?_)
  show postScale (W10 m ρ c (Proc.devRef .tc main_v50)) (W10 m ρ c (Proc.devRef .tc main_v20)) (W10 m ρ c (Proc.devRef .tc main_v51)) = _
  rw [W10_v50, W10_v20, W10_v51]
  exact kernel_layer D EW SRC DST a7 (h1 m c) a6

theorem W11_arg3 : W11 m ρ c (Proc.devRef .tc main_arg3) = a3 :=
  (W11_of_ne m ρ c main_arg3 (by decide)).trans (W10_arg3 m ρ c)

theorem W11_arg8 : W11 m ρ c (Proc.devRef .tc main_arg8) = a8 :=
  (W11_of_ne m ρ c main_arg8 (by decide)).trans (W10_arg8 m ρ c)

theorem W11_arg9 : W11 m ρ c (Proc.devRef .tc main_arg9) = a9 :=
  (W11_of_ne m ρ c main_arg9 (by decide)).trans (W10_arg9 m ρ c)

/-! ## The pooling and the last linear map -/

theorem W12_v64 : W12 m ρ c (Proc.devRef .tc main_v64) = Cert.ReferenceIdeal.RefValue.pool a3 (h2 m c) := by
  have e : W12 m ρ c (Proc.devRef .tc main_v64) = Cert.ReferenceIdeal.RefValue.pool (W11 m ρ c (Proc.devRef .tc main_arg3)) (W11 m ρ c (Proc.devRef .tc main_v52)) := by
    show after hostOps4 (W11 m ρ c) _ = _
    generalize W11 m ρ c = V
    after_results_simp
    try rfl
  rw [e, W11_arg3, W11_v52]

theorem W12_v65 : W12 m ρ c (Proc.devRef .tc main_v65) = shapeCast S1x2 a9 shapeCasts_S2_S1x2 := by
  have e : W12 m ρ c (Proc.devRef .tc main_v65) = shapeCast S1x2 (W11 m ρ c (Proc.devRef .tc main_arg9)) shapeCasts_S2_S1x2 := by
    show after hostOps4 (W11 m ρ c) _ = _
    generalize W11 m ρ c = V
    after_results_simp
    try rfl
  rw [e, W11_arg9]

theorem W12_arg8 : W12 m ρ c (Proc.devRef .tc main_arg8) = a8 := by
  have e : W12 m ρ c (Proc.devRef .tc main_arg8) = W11 m ρ c (Proc.devRef .tc main_arg8) := by
    show after hostOps4 (W11 m ρ c) _ = _
    generalize W11 m ρ c = V
    after_results
  rw [e]
  exact W11_arg8 m ρ c

/-- What the program returns: the pooled second layer times the last weights plus the last bias. -/
theorem result_eq : (dat4 (V12 m ρ) c).arrAt 3 cfg4.N
    = fun i => rowsTimes (Cert.ReferenceIdeal.RefValue.pool a3 (h2 m c)) a8 i + a9 (ix1 (i 1 : Fin 2)) := by
  refine (RegionValue.final4 (V12 m ρ) c).trans ?_
  show finalLin (W12 m ρ c (Proc.devRef .tc main_v64)) (W12 m ρ c (Proc.devRef .tc main_arg8)) (W12 m ρ c (Proc.devRef .tc main_v65)) = _
  rw [W12_v64, W12_arg8, W12_v65]
  funext i
  obtain ⟨g, o, rfl⟩ : ∃ (g : Fin 50) (o : Fin 2), i = ix2 g o := ⟨i 0, i 1, eq_ix2 i⟩
  show rowsTimes _ _ (ix2 g o) + shapeCast S1x2 a9 shapeCasts_S2_S1x2 (ix2 (0 : Fin 1) o) = _
  rw [shapeCast_a_1a_apply]

end Cert.KernelIdeal.KValue

end
-- ==== Proof.RefFacts.lean ====
/-
  Two facts about the reference's per-node factors and target numbers.

  * Every per-node factor is a nonnegative real number. The factor is `where(deg > 0, rsqrt(where(deg > 0, deg, 1)), 0)`:
    where the weighted degree is positive (possibly +∞) it is the inverse square root of a positive extended real —
    zero at +∞, `(√x)⁻¹` at a positive real `x` —, and elsewhere it is the zero word. The degree itself is never opened.
  * An edge that lands on node `r` (its target number, read as a signed integer, is `r`'s number) reads `r`'s own factor:
    the number is not negative, so the wrap of negative numbers leaves it, and it is below 50000, so the clamp leaves it.
-/
import proofs.«125872_j46729244180997_2_alg».proof.Proof.Gen.ReferenceIdeal.Read
import proofs.«125872_j46729244180997_2_alg».proof.Proof.Spec
import Idealize.ShloMosaic.Lib.Affine

noncomputable section

namespace Cert.ReferenceIdeal.RefValue

open Cert.ReferenceIdeal Cert.ReferenceIdeal.Gen Cert.ReferenceIdeal.Read Cert.Gcn Cert.Dense
open Idealize.ShloMosaic Idealize.ShloMosaic.ValueIdx

/-- The inverse square root of a positive extended real (possibly +∞) is a nonnegative real number. -/
theorem rsqrt_of_pos (g : EReal) (hg : 0 < g) : ∃ d : ℝ, 0 ≤ d ∧ Ideal.rsqrt g = (d : EReal) := by
  induction g using EReal.rec with
  | bot => exact absurd hg (not_lt_bot)
  | top => exact ⟨0, le_refl 0, rfl⟩
  | coe r =>
    have hr : 0 < r := by exact_mod_cast hg
    refine ⟨(Real.sqrt r)⁻¹, inv_nonneg.mpr (Real.sqrt_nonneg r), ?_⟩
    rw [Ideal.rsqrt_coe, if_neg (not_lt.mpr hr.le), if_neg hr.ne']

/-- The comparison "greater than the zero word" holding says the number is positive. -/
theorem pos_of_gt_zeroW (g : EReal) (h : Ideal.cmp .ogt g zeroW = 1#1) : 0 < g := by
  have h' : BitVec.ofBool (decide (zeroW < g)) = 1#1 := h
  rw [show zeroW = (0 : EReal) from Ideal.ofBits_zero_f32] at h'
  by_cases hp : (0 : EReal) < g
  · exact hp
  · rw [decide_eq_false hp] at h'
    exact absurd h' (by decide)

variable (x1 : (⟨S2x3200000, .i32⟩ : BufTy).Contents (Elt Ideal)) (x2 : (⟨S3200000x1, .f32⟩ : BufTy).Contents (Elt Ideal))

/-- Every per-node factor is a nonnegative real number: where the weighted degree is positive it is the inverse
    square root of a positive extended real, elsewhere it is the zero word. -/
theorem dinv_nonneg_real (r : Fin 50000) :
    ∃ d : ℝ, 0 ≤ d ∧ val_main_v19 (F := Ideal) x1 x2 (ix1 r) = (d : EReal) := by
  rw [val_main_v19_apply, val_main_v14_apply, val_main_v18_apply, val_main_v17_apply, val_main_v16_apply]
  have z13 : val_main_v13 (F := Ideal) (ix1 r) = zeroW := by rw [val_main_v13_apply]; rfl
  have z15 : val_main_v15 (F := Ideal) (ix1 r) = zeroW := by rw [val_main_v15_apply]; rfl
  have zc1 : val_main_call1_v1 (F := Ideal) (ix1 r) = zeroW := by rw [val_main_call1_v1_apply]; rfl
  rw [z13, z15, zc1]
  generalize val_main_v12 (F := Ideal) x1 x2 (ix1 r) = g
  by_cases hc : Ideal.cmp .ogt g zeroW = 1#1
  · have hg := pos_of_gt_zeroW g hc
    have e1 : FloatOps.cmpf (F := Ideal) (φ := .f32) .ogt g zeroW = 1 := hc
    unfold Scalar.select
    rw [if_pos e1, if_pos e1]
    exact rsqrt_of_pos g hg
  · have e1 : ¬ FloatOps.cmpf (F := Ideal) (φ := .f32) .ogt g zeroW = 1 := hc
    unfold Scalar.select
    rw [if_neg e1]
    exact ⟨0, le_refl 0, Ideal.ofBits_zero_f32⟩

/-- An edge whose target number is node `r`'s number has that number unchanged by the wrap of negative numbers and
    by the clamp into 0 … 49999: the number is not negative and is below 50000. -/
theorem dstN_of_lands (e : Fin 3250000) (r : Fin 50000) :
    lands (val_main_v11 (F := Ideal) x1) e r → rowOf (val_main_v33 (F := Ideal) x1) e = r := by
  intro h
  have h11 : val_main_v11 (F := Ideal) x1 (ix2 e (0 : Fin 1)) = val_main_v7 (F := Ideal) x1 (ix1 e) := by
    rw [val_main_v11_apply]
    exact congrArg _ (funext fun a => by match a with | ⟨0, _⟩ => rfl)
  have h33 : val_main_v33 (F := Ideal) x1 (ix2 e (0 : Fin 1)) = val_main_v32 (F := Ideal) x1 (ix1 e) := by
    rw [val_main_v33_apply]
    exact congrArg _ (funext fun a => by match a with | ⟨0, _⟩ => rfl)
  have h' : (val_main_v11 (F := Ideal) x1 (ix2 e (0 : Fin 1))).toInt = (r.val : Int) := h
  rw [h11] at h'
  have z28 : val_main_v28 (F := Ideal) (ix1 e) = 0#32 := by rw [val_main_v28_apply]; rfl
  apply Fin.ext
  show min (val_main_v33 (F := Ideal) x1 (ix2 e (0 : Fin 1))).toInt.toNat (50000 - 1) = r.val
  rw [h33, val_main_v32_apply, val_main_v29_apply, z28]
  generalize val_main_v7 (F := Ideal) x1 (ix1 e) = t at h' ⊢
  have hnot : ¬ IntOp.cmpi .slt t 0#32 = 1#1 := by
    rw [IntOp.cmpi_slt, h']
    have : (0#32 : BitVec 32).toInt = 0 := by decide
    rw [this]
    omega
  have hnot' : ¬ IntOp.cmpi .slt t 0#32 = 1 := hnot
  unfold Scalar.select
  rw [if_neg hnot', h']
  have := r.isLt
  omega

end Cert.ReferenceIdeal.RefValue

end
-- ==== Proof.LibNonnegFactor.lean ====
/-
  A nonnegative real factor distributes over a finite sum of extended reals.

  On the extended reals a product does not distribute over a sum in general: `(⊤ + ⊥) · (−1)` and `⊤ · (−1) + ⊥ · (−1)`
  differ, and so do `(⊤ + ⊥) · ⊤` and its two products. A factor `d` with `0 ≤ d` and `d ≠ ⊤` (a nonnegative real
  number) is different: multiplying by it keeps the sign of every infinity, or sends everything to zero, so
  `(∑ f) · d = ∑ (f · d)` and `d · (∑ f) = ∑ (d · f)` whatever the terms are. This is what lets a per-row scale be moved
  across an accumulation whose terms may be infinite. Nothing here depends on a particular program.
-/
import Mathlib.Data.EReal.Operations
import Mathlib.Algebra.BigOperators.Group.Finset.Basic

namespace Cert.NonnegFactor

/-- `(∑ i ∈ s, f i) · d = ∑ i ∈ s, f i · d` for a nonnegative real factor `d`. -/
theorem sum_mul {ι : Type} (s : Finset ι) (f : ι → EReal) {d : EReal} (h0 : 0 ≤ d) (ht : d ≠ ⊤) :
    (∑ i ∈ s, f i) * d = ∑ i ∈ s, f i * d := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- `d · (∑ i ∈ s, f i) = ∑ i ∈ s, d · f i` for a nonnegative real factor `d`. -/
theorem mul_sum {ι : Type} (s : Finset ι) (f : ι → EReal) {d : EReal} (h0 : 0 ≤ d) (ht : d ≠ ⊤) :
    d * (∑ i ∈ s, f i) = ∑ i ∈ s, d * f i := by
  rw [EReal.mul_comm, sum_mul s f h0 ht]
  exact Finset.sum_congr rfl fun i _ => EReal.mul_comm _ _

end Cert.NonnegFactor
-- ==== Proof.LayerLaw.lean ====
/-
  The two forms of a layer agree.

  `layerSplit` multiplies node `s`'s row by `dinv s` before the edges read it and multiplies the accumulated row of node
  `r` by `dinv r` afterwards; `layerEdge` gives each edge the single factor `(dinv s · ew e) · dinv t`. On the extended
  reals a product does not distribute over a sum in general (an infinite factor, or a zero factor against an infinite
  total, breaks it), but a factor that is a nonnegative real number does: `(∑ f) · d = ∑ (f · d)` for `0 ≤ d < +inf`.
  So when every `dinv r` is a nonnegative real number the outer factor `dinv r` moves inside the sum over the edges
  landing on `r`; an edge landing on `r` has `t = r`; and what is left is associativity of the product. Nothing is
  assumed of the node features, the weights or the edge weights: they may be infinite.
-/
import proofs.«125872_j46729244180997_2_alg».proof.Proof.Spec
import proofs.«125872_j46729244180997_2_alg».proof.Proof.LibNonnegFactor

noncomputable section

namespace Cert.Gcn

open Idealize.ShloMosaic Idealize.ShloMosaic.ValueIdx Cert.Dense

/-- The layer with split node factors is the layer with one factor per edge, when every node factor is a
    nonnegative real number and an edge landing on node `r` reads the target-side factor of `r`. -/
theorem layer_eq (H : (⟨2, ![50000, 64]⟩ : Shape).Idx → EReal) (D : (⟨1, ![50000]⟩ : Shape).Idx → EReal)
    (EW : (⟨1, ![3250000]⟩ : Shape).Idx → EReal) (SRC DST DSTN : Col) (b : (⟨1, ![64]⟩ : Shape).Idx → EReal)
    (hD : ∀ r : Fin 50000, 0 ≤ D (ix1 r) ∧ D (ix1 r) ≠ ⊤)
    (hN : ∀ (e : Fin 3250000) (r : Fin 50000), lands DST e r → rowOf DSTN e = r) :
    layerSplit H D EW SRC DST b = layerEdge H D EW SRC DST DSTN b := by
  funext i
  obtain ⟨r, j, rfl⟩ : ∃ (r : Fin 50000) (j : Fin 64), i = ix2 r j := ⟨i 0, i 1, eq_ix2 i⟩
  show max ((zeroW + ∑ e : Fin 3250000, if lands DST e r then
        (H (ix2 (rowOf SRC e) j) * D (ix1 (rowOf SRC e))) * EW (ix1 e) else 0) * D (ix1 r) + b (ix1 j)) zeroW
    = max ((zeroW + ∑ e : Fin 3250000, if lands DST e r then
        H (ix2 (rowOf SRC e) j) * ((D (ix1 (rowOf SRC e)) * EW (ix1 e)) * D (ix1 (rowOf DSTN e))) else 0) + b (ix1 j)) zeroW
  have hz : zeroW = 0 := Ideal.ofBits_zero_f32
  rw [hz, zero_add, zero_add, Cert.NonnegFactor.sum_mul _ _ (hD r).1 (hD r).2]
  refine congrArg (fun s => max (s + b (ix1 j)) 0) (Finset.sum_congr rfl fun e _ => ?_)
  by_cases h : lands DST e r
  · rw [if_pos h, if_pos h, hN e r h]
    simp only [mul_assoc]
  · rw [if_neg h, if_neg h, zero_mul]

end Cert.Gcn

end
-- ==== Proof.RefSplit.lean ====
/-
  The reference's result with both layers written in the split form.

  The reference gives every edge the one factor `(dinv s · ew e) · dinv t`. Every `dinv r` is a nonnegative real number,
  and an edge landing on node `r` has `t = r`; so the target-side factor moves out of the sum over the edges landing on
  `r` (a nonnegative real factor distributes over any sum of extended reals), and each layer is the layer that scales
  node `s`'s row by `dinv s` first and the accumulated row of node `r` by `dinv r` afterwards.
-/
import proofs.«125872_j46729244180997_2_alg».proof.Proof.RefValue
import proofs.«125872_j46729244180997_2_alg».proof.Proof.RefFacts
import proofs.«125872_j46729244180997_2_alg».proof.Proof.LayerLaw

noncomputable section

namespace Cert.ReferenceIdeal.RefValue

open Cert.ReferenceIdeal Cert.ReferenceIdeal.Gen Cert.ReferenceIdeal.Read Cert.Gcn Cert.Dense
open Idealize.ShloMosaic Idealize.ShloMosaic.ValueIdx

variable (x0 : (⟨S50000x5, .f32⟩ : BufTy).Contents (Elt Ideal)) (x1 : (⟨S2x3200000, .i32⟩ : BufTy).Contents (Elt Ideal))
  (x2 : (⟨S3200000x1, .f32⟩ : BufTy).Contents (Elt Ideal)) (x3 : (⟨S50000, .i32⟩ : BufTy).Contents (Elt Ideal))
  (x4 : (⟨S5x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x2, .f32⟩ : BufTy).Contents (Elt Ideal)) (x9 : (⟨S2, .f32⟩ : BufTy).Contents (Elt Ideal))

/-- Every per-node factor is nonnegative and is not +∞. -/
theorem dinv_real (r : Fin 50000) :
    0 ≤ (val_main_v19 (F := Ideal) x1 x2 (ix1 r) : EReal) ∧ (val_main_v19 (F := Ideal) x1 x2 (ix1 r) : EReal) ≠ ⊤ := by
  obtain ⟨d, hd, he⟩ := dinv_nonneg_real x1 x2 r
  rw [he]
  exact ⟨EReal.coe_nonneg.mpr hd, EReal.coe_ne_top d⟩

/-- The first layer with the normalisation split into a source-side and a target-side node factor. -/
theorem layer1_split : val_main_v53 (F := Ideal) x0 x1 x2 x4 x5
    = layerSplit (rowsTimes x0 x4) (val_main_v19 x1 x2) (val_main_v9 x2) (val_main_v25 x1) (val_main_v11 x1) x5 := by
  rw [layer1, layer_eq _ _ _ _ _ (val_main_v33 (F := Ideal) x1) _ (dinv_real x1 x2) (dstN_of_lands x1)]

/-- The second layer with the normalisation split into a source-side and a target-side node factor. -/
theorem layer2_split : val_main_v97 (F := Ideal) x0 x1 x2 x4 x5 x6 x7
    = layerSplit (rowsTimes (val_main_v53 x0 x1 x2 x4 x5) x6) (val_main_v19 x1 x2) (val_main_v9 x2) (val_main_v25 x1)
        (val_main_v11 x1) x7 := by
  rw [layer2, layer_eq _ _ _ _ _ (val_main_v33 (F := Ideal) x1) _ (dinv_real x1 x2) (dstN_of_lands x1)]

/-- The reference's result with both layers in the split form. -/
theorem ref_split : val_main_v113 (F := Ideal) x0 x1 x2 x3 x4 x5 x6 x7 x8 x9
    = fun i => rowsTimes (pool x3 (layerSplit (rowsTimes (layerSplit (rowsTimes x0 x4) (val_main_v19 x1 x2) (val_main_v9 x2)
        (val_main_v25 x1) (val_main_v11 x1) x5) x6) (val_main_v19 x1 x2) (val_main_v9 x2) (val_main_v25 x1) (val_main_v11 x1) x7)) x8 i
      + x9 (ix1 (i 1 : Fin 2)) := by
  rw [ref_value, layer2_split, layer1_split]

end Cert.ReferenceIdeal.RefValue

end
-- ==== Proof.lean ====
/-
  A two-layer graph convolution with mean pooling and a last linear map: the kernel program against its reference,
  on the extended reals.

  Both programs build the same edge list (one loop edge per node appended), edge weights, weighted in-degree `deg`
  and per-node factor `dinv = where(deg > 0, rsqrt(where(deg > 0, deg, 1)), 0)` by the same host operations. A layer
  of the reference gives every edge `e` from `s` to `t` the factor `(dinv s · ew e) · dinv t`, adds `(x·W)(s, ·)` times
  that factor onto node `t`, adds the bias and takes the maximum with zero. A layer of the kernel program scales row
  `s` of `x·W` by `dinv s` inside its product region, lets the host gather the scaled rows, multiply them by `ew e` and
  add them onto their target nodes, and scales node `r`'s total by `dinv r` inside its second region, which also adds
  the bias and takes the maximum with zero. The two agree entry by entry because `dinv r` is always a nonnegative
  real number — the inverse square root of a positive extended real, or zero —, and a nonnegative real factor
  distributes over any sum of extended reals; the rest is associativity of the product. No input needs to be finite
  for this, so the precondition is never opened. A gather reads the row whose number is the start index read signed,
  wrapped if negative and clamped into range; an accumulation drops an edge whose target number is no node's; an edge
  that lands on node `r` therefore reads the target-side factor of `r` itself. Pooling and the last linear map are
  the same operations in both programs, the kernel's last product being the plain matrix product into a zero
  accumulator plus the bias row.

  The kernel program's run names what its five regions and the host operations between them leave in each buffer;
  the reference's run is its generated module, read one operation at a time.
-/
import proofs.«125872_j46729244180997_2_alg».proof.Defs
import proofs.«125872_j46729244180997_2_alg».proof.Proof.Gen.Kernel
import proofs.«125872_j46729244180997_2_alg».proof.Proof.Gen.Kernel.Frame
import proofs.«125872_j46729244180997_2_alg».proof.Proof.Gen.KernelIdeal
import proofs.«125872_j46729244180997_2_alg».proof.Proof.Gen.KernelIdeal.Frame
import proofs.«125872_j46729244180997_2_alg».proof.Proof.Gen.ReferenceIdeal
import proofs.«125872_j46729244180997_2_alg».proof.Proof.Gen.Pre_finite_inputs
import proofs.«125872_j46729244180997_2_alg».proof.Proof.Gen.ReferenceIdeal.Run
import proofs.«125872_j46729244180997_2_alg».proof.Proof.Gen.ReferenceIdeal.Read
import proofs.«125872_j46729244180997_2_alg».proof.Proof.KRun
import proofs.«125872_j46729244180997_2_alg».proof.Proof.KStages
import proofs.«125872_j46729244180997_2_alg».proof.Proof.RefSplit
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same array: the last linear map of the
    pooled second layer, each layer with the normalisation split into two node factors on the kernel's side and
    rewritten into that form on the reference's. -/
theorem algebraic : Cert.algebraic_KernelIdeal_ReferenceIdeal := by
  intro m ρ m' ρ' _ hagree
  refine ⟨fun c => (Cert.KernelIdeal.Gen.dat4 (Cert.KernelIdeal.Gen.V12 m ρ) c).arrAt 3 Cert.KernelIdeal.cfg4.N,
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v113 m' c
    = (Cert.KernelIdeal.Gen.dat4 (Cert.KernelIdeal.Gen.V12 m ρ) c).arrAt 3 Cert.KernelIdeal.cfg4.N
  obtain ⟨e0, e1, e2, e3, e4, e5, e6, e7, e8, e9⟩ := hagree c
  rw [Cert.ReferenceIdeal.Read.val_main_v113_eq, Cert.ReferenceIdeal.RefValue.ref_split,
    Cert.KernelIdeal.KValue.result_eq m ρ c, e0, e1, e2, e3, e4, e5, e6, e7, e8, e9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
